-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x1000000 : Shape := ⟨2, ![2, 1000000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S64x128 .f32) (main_arg10 : FVec F S128 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x128 .f32) (main_arg10 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x5 .f32) (main_arg1 : IVec S2x1000000 32) (main_arg2 : IVec S100000 32) (main_arg3 : FVec F S5x64 .f32) (main_arg4 : FVec F S64 .f32) (main_arg5 : FVec F S64x64 .f32) (main_arg6 : FVec F S64 .f32) (main_arg7 : FVec F S64x64 .f32) (main_arg8 : FVec F S64 .f32) (main_arg9 : FVec F S64x128 .f32) (main_arg10 : FVec F S128 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x64 .f32 := Host.absf main_arg3
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x5 : Shape := ⟨2, ![100000, 5]⟩
abbrev S2x1000000 : Shape := ⟨2, ![2, 1000000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S5000x5 : Shape := ⟨2, ![5000, 5]⟩
abbrev S5000x64 : Shape := ⟨2, ![5000, 64]⟩
abbrev S1100000x64 : Shape := ⟨2, ![1100000, 64]⟩
abbrev S1x64 : Shape := ⟨2, ![1, 64]⟩
abbrev S2048x64 : Shape := ⟨2, ![2048, 64]⟩
abbrev S100000x1 : Shape := ⟨2, ![100000, 1]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩

abbrev nBuf : Space → Nat
  | .hbm => 110
  | .vmem => 22
  | .smem => 0
  | _ => 0

abbrev bufTy : (tb : Table) → Fin (tcTables nBuf tb) → BufTy
  | .hbm, ⟨0, _⟩ => ⟨S100000x5, .f32⟩
  | .hbm, ⟨1, _⟩ => ⟨S2x1000000, .i32⟩
  | .hbm, ⟨2, _⟩ => ⟨S100000, .i32⟩
  | .hbm, ⟨3, _⟩ => ⟨S5x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S1x1000000, .i32⟩
  | .hbm, ⟨16, _⟩ => ⟨S1000000, .i32⟩
  | .hbm, ⟨17, _⟩ => ⟨S1100000, .i32⟩
  | .hbm, ⟨18, _⟩ => ⟨S_, .f32⟩
  | .hbm, ⟨19, _⟩ => ⟨S1100000, .f32⟩
  | .hbm, ⟨20, _⟩ => ⟨S_, .f32⟩
  | .hbm, ⟨21, _⟩ => ⟨S100000, .f32⟩
  | .hbm, ⟨22, _⟩ => ⟨S1100000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1100000, .i32⟩
  | .hbm, ⟨37, _⟩ => ⟨S1100000, .i1⟩
  | .hbm, ⟨38, _⟩ => ⟨S_, .i32⟩
  | .hbm, ⟨39, _⟩ => ⟨S1100000, .i32⟩
  | .hbm, ⟨40, _⟩ => ⟨S1100000, .i32⟩
  | .hbm, ⟨41, _⟩ => ⟨S1100000, .i32⟩
  | .hbm, ⟨42, _⟩ => ⟨S1100000x1, .i32⟩
  | .hbm, ⟨43, _⟩ => ⟨S1100000, .f32⟩
  | .hbm, ⟨44, _⟩ => ⟨S_, .i32⟩
  | .hbm, ⟨45, _⟩ => ⟨S1100000, .i32⟩
  | .hbm, ⟨46, _⟩ => ⟨S1100000, .i1⟩
  | .hbm, ⟨47, _⟩ => ⟨S_, .i32⟩
  | .hbm, ⟨48, _⟩ => ⟨S1100000, .i32⟩
  | .hbm, ⟨49, _⟩ => ⟨S1100000, .i32⟩
  | .hbm, ⟨50, _⟩ => ⟨S1100000, .i32⟩
  | .hbm, ⟨51, _⟩ => ⟨S1100000x1, .i32⟩
  | .hbm, ⟨52, _⟩ => ⟨S1100000, .f32⟩
  | .hbm, ⟨53, _⟩ => ⟨S1100000, .f32⟩
  | .hbm, ⟨54, _⟩ => ⟨S100000x64, .f32⟩
  | .hbm, ⟨55, _⟩ => ⟨S_, .i32⟩
  | .hbm, ⟨56, _⟩ => ⟨S1100000, .i32⟩
  | .hbm, ⟨57, _⟩ => ⟨S1100000, .i1⟩
  | .hbm, ⟨58, _⟩ => ⟨S_, .i32⟩
  | .hbm, ⟨59, _⟩ => ⟨S1100000, .i32⟩
  | .hbm, ⟨60, _⟩ => ⟨S1100000, .i32⟩
  | .hbm, ⟨61, _⟩ => ⟨S1100000, .i32⟩
  | .hbm, ⟨62, _⟩ => ⟨S1100000x1, .i32⟩
  | .hbm, ⟨63, _⟩ => ⟨S1100000x64, .f32⟩
  | .hbm, ⟨64, _⟩ => ⟨S1100000x1, .f32⟩
  | .hbm, ⟨65, _⟩ => ⟨S1100000x64, .f32⟩
  | .hbm, ⟨66, _⟩ => ⟨S1100000x64, .f32⟩
  | .hbm, ⟨67, _⟩ => ⟨S_, .f32⟩
  | .hbm, ⟨68, _⟩ => ⟨S100000x64, .f32⟩
  | .hbm, ⟨69, _⟩ => ⟨S1100000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1100000, .i32⟩
  | .hbm, ⟨75, _⟩ => ⟨S1100000, .i1⟩
  | .hbm, ⟨76, _⟩ => ⟨S_, .i32⟩
  | .hbm, ⟨77, _⟩ => ⟨S1100000, .i32⟩
  | .hbm, ⟨78, _⟩ => ⟨S1100000, .i32⟩
  | .hbm, ⟨79, _⟩ => ⟨S1100000, .i32⟩
  | .hbm, ⟨80, _⟩ => ⟨S1100000x1, .i32⟩
  | .hbm, ⟨81, _⟩ => ⟨S1100000x64, .f32⟩
  | .hbm, ⟨82, _⟩ => ⟨S1100000x1, .f32⟩
  | .hbm, ⟨83, _⟩ => ⟨S1100000x64, .f32⟩
  | .hbm, ⟨84, _⟩ => ⟨S1100000x64, .f32⟩
  | .hbm, ⟨85, _⟩ => ⟨S_, .f32⟩
  | .hbm, ⟨86, _⟩ => ⟨S100000x64, .f32⟩
  | .hbm, ⟨87, _⟩ => ⟨S1100000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S_, .f32⟩
  | .hbm, ⟨92, _⟩ => ⟨S2048x64, .f32⟩
  | .hbm, ⟨93, _⟩ => ⟨S100000x1, .i32⟩
  | .hbm, ⟨94, _⟩ => ⟨S2048x64, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S2048, .f32⟩
  | .hbm, ⟨99, _⟩ => ⟨S100000x1, .i32⟩
  | .hbm, ⟨100, _⟩ => ⟨S2048, .f32⟩
  | .hbm, ⟨101, _⟩ => ⟨S_, .f32⟩
  | .hbm, ⟨102, _⟩ => ⟨S2048, .f32⟩
  | .hbm, ⟨103, _⟩ => ⟨S2048, .f32⟩
  | .hbm, ⟨104, _⟩ => ⟨S2048x1, .f32⟩
  | .hbm, ⟨105, _⟩ => ⟨S2048x64, .f32⟩
  | .hbm, ⟨106, _⟩ => ⟨S2048x64, .f32⟩
  | .hbm, ⟨107, _⟩ => ⟨S1x64, .f32⟩
  | .hbm, ⟨108, _⟩ => ⟨S1x128, .f32⟩
  | .hbm, ⟨109, _⟩ => ⟨S2048x128, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S2048x64, .f32⟩
  | .local _ .vmem, ⟨17, _⟩ => ⟨S64x64, .f32⟩
  | .local _ .vmem, ⟨18, _⟩ => ⟨S1x64, .f32⟩
  | .local _ .vmem, ⟨19, _⟩ => ⟨S64x128, .f32⟩
  | .local _ .vmem, ⟨20, _⟩ => ⟨S1x128, .f32⟩
  | .local _ .vmem, ⟨21, _⟩ => ⟨S2048x128, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S5000x64_S5000x64_0_0 : ∀ a, (![0, 0] : Fin 2 → Nat) a + S5000x64.size a ≤ S5000x64.size a
  h_S5000x64 : 0 < S5000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S128_S1x128 : S128.ShapeCasts S1x128
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1x64_S2048x64 : S1x64.Broadcasts S2048x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x5_S5x64_S5000x64_1_0_0_1_n_n_wf : DotDims.WF S5000x5 S5x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x64_S2048x64_1_0_0_1_n_n_wf : DotDims.WF S2048x64 S64x64 S2048x64 [1] [0] [0] [1] [] []
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S2048x64.size a
  hwx3_0 : ∀ i : grid3.Coords, EltTy.bits .f32 = 32 ∨ (Rect.block (s := S2048x64) S2048x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048x128.size a ≤ S2048x128.size a
  hwx3_5 : ∀ i : grid3.Coords, EltTy.bits .f32 = 32 ∨ (Rect.block (s := S2048x128) S2048x128.size (cc3_transform_5 i) (hinb3_5 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S2048x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S2048x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x5 : Shape := ⟨2, ![100000, 5]⟩
abbrev S2x1000000 : Shape := ⟨2, ![2, 1000000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S2048x64 : Shape := ⟨2, ![2048, 64]⟩
abbrev S100000x1 : Shape := ⟨2, ![100000, 1]⟩
abbrev S2048 : Shape := ⟨1, ![2048]⟩
abbrev S2048x1 : Shape := ⟨2, ![2048, 1]⟩
abbrev S2048x128 : Shape := ⟨2, ![2048, 128]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x1000000, .i32⟩
  | .hbm, ⟨2, _⟩ => ⟨S100000, .i32⟩
  | .hbm, ⟨3, _⟩ => ⟨S5x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S1x1000000, .i32⟩
  | .hbm, ⟨16, _⟩ => ⟨S1000000, .i32⟩
  | .hbm, ⟨17, _⟩ => ⟨S1100000, .i32⟩
  | .hbm, ⟨18, _⟩ => ⟨S_, .f32⟩
  | .hbm, ⟨19, _⟩ => ⟨S1100000, .f32⟩
  | .hbm, ⟨20, _⟩ => ⟨S_, .f32⟩
  | .hbm, ⟨21, _⟩ => ⟨S100000, .f32⟩
  | .hbm, ⟨22, _⟩ => ⟨S1100000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1100000, .i32⟩
  | .hbm, ⟨37, _⟩ => ⟨S1100000, .i1⟩
  | .hbm, ⟨38, _⟩ => ⟨S_, .i32⟩
  | .hbm, ⟨39, _⟩ => ⟨S1100000, .i32⟩
  | .hbm, ⟨40, _⟩ => ⟨S1100000, .i32⟩
  | .hbm, ⟨41, _⟩ => ⟨S1100000, .i32⟩
  | .hbm, ⟨42, _⟩ => ⟨S1100000x1, .i32⟩
  | .hbm, ⟨43, _⟩ => ⟨S1100000, .f32⟩
  | .hbm, ⟨44, _⟩ => ⟨S_, .i32⟩
  | .hbm, ⟨45, _⟩ => ⟨S1100000, .i32⟩
  | .hbm, ⟨46, _⟩ => ⟨S1100000, .i1⟩
  | .hbm, ⟨47, _⟩ => ⟨S_, .i32⟩
  | .hbm, ⟨48, _⟩ => ⟨S1100000, .i32⟩
  | .hbm, ⟨49, _⟩ => ⟨S1100000, .i32⟩
  | .hbm, ⟨50, _⟩ => ⟨S1100000, .i32⟩
  | .hbm, ⟨51, _⟩ => ⟨S1100000x1, .i32⟩
  | .hbm, ⟨52, _⟩ => ⟨S1100000, .f32⟩
  | .hbm, ⟨53, _⟩ => ⟨S1100000, .f32⟩
  | .hbm, ⟨54, _⟩ => ⟨S100000x64, .f32⟩
  | .hbm, ⟨55, _⟩ => ⟨S_, .i32⟩
  | .hbm, ⟨56, _⟩ => ⟨S1100000, .i32⟩
  | .hbm, ⟨57, _⟩ => ⟨S1100000, .i1⟩
  | .hbm, ⟨58, _⟩ => ⟨S_, .i32⟩
  | .hbm, ⟨59, _⟩ => ⟨S1100000, .i32⟩
  | .hbm, ⟨60, _⟩ => ⟨S1100000, .i32⟩
  | .hbm, ⟨61, _⟩ => ⟨S1100000, .i32⟩
  | .hbm, ⟨62, _⟩ => ⟨S1100000x1, .i32⟩
  | .hbm, ⟨63, _⟩ => ⟨S1100000x64, .f32⟩
  | .hbm, ⟨64, _⟩ => ⟨S1100000x1, .f32⟩
  | .hbm, ⟨65, _⟩ => ⟨S1100000x64, .f32⟩
  | .hbm, ⟨66, _⟩ => ⟨S1100000x64, .f32⟩
  | .hbm, ⟨67, _⟩ => ⟨S_, .f32⟩
  | .hbm, ⟨68, _⟩ => ⟨S100000x64, .f32⟩
  | .hbm, ⟨69, _⟩ => ⟨S1100000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1100000, .i32⟩
  | .hbm, ⟨80, _⟩ => ⟨S1100000, .i1⟩
  | .hbm, ⟨81, _⟩ => ⟨S_, .i32⟩
  | .hbm, ⟨82, _⟩ => ⟨S1100000, .i32⟩
  | .hbm, ⟨83, _⟩ => ⟨S1100000, .i32⟩
  | .hbm, ⟨84, _⟩ => ⟨S1100000, .i32⟩
  | .hbm, ⟨85, _⟩ => ⟨S1100000x1, .i32⟩
  | .hbm, ⟨86, _⟩ => ⟨S1100000x64, .f32⟩
  | .hbm, ⟨87, _⟩ => ⟨S1100000x1, .f32⟩
  | .hbm, ⟨88, _⟩ => ⟨S1100000x64, .f32⟩
  | .hbm, ⟨89, _⟩ => ⟨S1100000x64, .f32⟩
  | .hbm, ⟨90, _⟩ => ⟨S_, .f32⟩
  | .hbm, ⟨91, _⟩ => ⟨S100000x64, .f32⟩
  | .hbm, ⟨92, _⟩ => ⟨S1100000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S2048x64, .f32⟩
  | .hbm, ⟨102, _⟩ => ⟨S100000x1, .i32⟩
  | .hbm, ⟨103, _⟩ => ⟨S2048x64, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S2048, .f32⟩
  | .hbm, ⟨108, _⟩ => ⟨S100000x1, .i32⟩
  | .hbm, ⟨109, _⟩ => ⟨S2048, .f32⟩
  | .hbm, ⟨110, _⟩ => ⟨S_, .f32⟩
  | .hbm, ⟨111, _⟩ => ⟨S2048, .f32⟩
  | .hbm, ⟨112, _⟩ => ⟨S2048, .f32⟩
  | .hbm, ⟨113, _⟩ => ⟨S2048x1, .f32⟩
  | .hbm, ⟨114, _⟩ => ⟨S2048x64, .f32⟩
  | .hbm, ⟨115, _⟩ => ⟨S2048x64, .f32⟩
  | .hbm, ⟨116, _⟩ => ⟨S2048x64, .f32⟩
  | .hbm, ⟨117, _⟩ => ⟨S1x64, .f32⟩
  | .hbm, ⟨118, _⟩ => ⟨S2048x64, .f32⟩
  | .hbm, ⟨119, _⟩ => ⟨S2048x64, .f32⟩
  | .hbm, ⟨120, _⟩ => ⟨S_, .f32⟩
  | .hbm, ⟨121, _⟩ => ⟨S2048x64, .f32⟩
  | .hbm, ⟨122, _⟩ => ⟨S2048x64, .f32⟩
  | .hbm, ⟨123, _⟩ => ⟨S2048x128, .f32⟩
  | .hbm, ⟨124, _⟩ => ⟨S1x128, .f32⟩
  | .hbm, ⟨125, _⟩ => ⟨S2048x128, .f32⟩
  | .hbm, ⟨126, _⟩ => ⟨S2048x128, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call3_cst : Ref sig .tc := ⟨.hbm, 120, rfl⟩
abbrev main_call3_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x5_S5x64_S100000x64_1_0_0_1_n_n_wf : DotDims.WF S100000x5 S5x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x64_S2048x64_1_0_0_1_n_n_wf : DotDims.WF S2048x64 S64x64 S2048x64 [1] [0] [0] [1] [] []
  dot_S2048x64_S64x128_S2048x128_1_0_0_1_n_n_wf : DotDims.WF S2048x64 S64x128 S2048x128 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

class Facts : Prop extends Facts₀ where

variable [Facts]
-- ==== Proof.KernelRun.lean ====
/-
  The idealized kernel program's run with its result named.

  The program is four kernel regions among stretches of host operations. Its run visits a sequence of buffer
  contents: the launch memory, the contents after each stretch, and after each region the contents in which the
  region's arrays hold what its write-backs leave. Every weakly fair execution terminates without a fault in a
  state whose unscoped buffers hold the last contents of that sequence; read at the result buffer and at the
  eleven argument buffers this gives the result as the last region's output array and the arguments as launched.
-/
import proofs.«130339_j90589450207900_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the contents the last
    region leaves and each argument as launched. -/
theorem run : θ_run defs (onTc (τ := τ) (main (F := F))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.KernelRun

end
-- ==== Proof.Carried.lean ====
/-
  Buffers carried unchanged along the run.

  An argument array is written by no host operation and by no region, so at every boundary of the run it holds its
  launch contents. The same holds, from the boundary after the operation that computes it, for an intermediate array
  that later stretches read again: here the two index vectors (sources and destinations of the messages, self-loops
  appended) and the vector of normalisation coefficients.
-/
import proofs.«130339_j90589450207900_1_alg».proof.Proof.Gen.KernelIdeal.Frame
import Idealize.ShloMosaic.PureOps.Ideal

set_option maxRecDepth 16384

noncomputable section

namespace Cert.KernelIdeal.Carried

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- A buffer that no operation of a stretch writes holds after the stretch what it held before. -/
local macro "host_keep " ops:ident : tactic => `(tactic|
  exact StableHlo.after_of_forall_not_mem (b := _) _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem arg0_keep1 : W1 m ρ c (Proc.devRef .tc main_arg0) = W0 m ρ c (Proc.devRef .tc main_arg0) := by host_keep hostOps0
theorem arg0_keep2 : W2 m ρ c (Proc.devRef .tc main_arg0) = W1 m ρ c (Proc.devRef .tc main_arg0) := by host_keep hostOps0_1
theorem arg0_keep3 : W3 m ρ c (Proc.devRef .tc main_arg0) = W2 m ρ c (Proc.devRef .tc main_arg0) := by host_keep hostOps0_2
/-- `arg0` at boundary 3 is as launched. -/
theorem arg0_at3 : W3 m ρ c (Proc.devRef .tc main_arg0) = m ((c : Thread nD τ).loc main_arg0) :=
  ((arg0_keep3 m ρ c).trans ((arg0_keep2 m ρ c).trans (arg0_keep1 m ρ c))).trans rfl

theorem arg3_keep1 : W1 m ρ c (Proc.devRef .tc main_arg3) = W0 m ρ c (Proc.devRef .tc main_arg3) := by host_keep hostOps0
theorem arg3_keep2 : W2 m ρ c (Proc.devRef .tc main_arg3) = W1 m ρ c (Proc.devRef .tc main_arg3) := by host_keep hostOps0_1
theorem arg3_keep3 : W3 m ρ c (Proc.devRef .tc main_arg3) = W2 m ρ c (Proc.devRef .tc main_arg3) := by host_keep hostOps0_2
/-- `arg3` at boundary 3 is as launched. -/
theorem arg3_at3 : W3 m ρ c (Proc.devRef .tc main_arg3) = m ((c : Thread nD τ).loc main_arg3) :=
  ((arg3_keep3 m ρ c).trans ((arg3_keep2 m ρ c).trans (arg3_keep1 m ρ c))).trans rfl

theorem arg4_keep1 : W1 m ρ c (Proc.devRef .tc main_arg4) = W0 m ρ c (Proc.devRef .tc main_arg4) := by host_keep hostOps0
theorem arg4_keep2 : W2 m ρ c (Proc.devRef .tc main_arg4) = W1 m ρ c (Proc.devRef .tc main_arg4) := by host_keep hostOps0_1
theorem arg4_keep3 : W3 m ρ c (Proc.devRef .tc main_arg4) = W2 m ρ c (Proc.devRef .tc main_arg4) := by host_keep hostOps0_2
theorem arg4_keep4 : W4 m ρ c (Proc.devRef .tc main_arg4) = W3 m ρ c (Proc.devRef .tc main_arg4) := W4_of_ne m ρ c main_arg4 (by decide)
/-- `arg4` at boundary 4 is as launched. -/
theorem arg4_at4 : W4 m ρ c (Proc.devRef .tc main_arg4) = m ((c : Thread nD τ).loc main_arg4) :=
  ((arg4_keep4 m ρ c).trans ((arg4_keep3 m ρ c).trans ((arg4_keep2 m ρ c).trans (arg4_keep1 m ρ c)))).trans rfl

theorem arg5_keep1 : W1 m ρ c (Proc.devRef .tc main_arg5) = W0 m ρ c (Proc.devRef .tc main_arg5) := by host_keep hostOps0
theorem arg5_keep2 : W2 m ρ c (Proc.devRef .tc main_arg5) = W1 m ρ c (Proc.devRef .tc main_arg5) := by host_keep hostOps0_1
theorem arg5_keep3 : W3 m ρ c (Proc.devRef .tc main_arg5) = W2 m ρ c (Proc.devRef .tc main_arg5) := by host_keep hostOps0_2
theorem arg5_keep4 : W4 m ρ c (Proc.devRef .tc main_arg5) = W3 m ρ c (Proc.devRef .tc main_arg5) := W4_of_ne m ρ c main_arg5 (by decide)
theorem arg5_keep5 : W5 m ρ c (Proc.devRef .tc main_arg5) = W4 m ρ c (Proc.devRef .tc main_arg5) := by host_keep hostOps1
/-- `arg5` at boundary 5 is as launched. -/
theorem arg5_at5 : W5 m ρ c (Proc.devRef .tc main_arg5) = m ((c : Thread nD τ).loc main_arg5) :=
  ((arg5_keep5 m ρ c).trans ((arg5_keep4 m ρ c).trans ((arg5_keep3 m ρ c).trans ((arg5_keep2 m ρ c).trans (arg5_keep1 m ρ c))))).trans rfl

theorem arg6_keep1 : W1 m ρ c (Proc.devRef .tc main_arg6) = W0 m ρ c (Proc.devRef .tc main_arg6) := by host_keep hostOps0
theorem arg6_keep2 : W2 m ρ c (Proc.devRef .tc main_arg6) = W1 m ρ c (Proc.devRef .tc main_arg6) := by host_keep hostOps0_1
theorem arg6_keep3 : W3 m ρ c (Proc.devRef .tc main_arg6) = W2 m ρ c (Proc.devRef .tc main_arg6) := by host_keep hostOps0_2
theorem arg6_keep4 : W4 m ρ c (Proc.devRef .tc main_arg6) = W3 m ρ c (Proc.devRef .tc main_arg6) := W4_of_ne m ρ c main_arg6 (by decide)
theorem arg6_keep5 : W5 m ρ c (Proc.devRef .tc main_arg6) = W4 m ρ c (Proc.devRef .tc main_arg6) := by host_keep hostOps1
theorem arg6_keep6 : W6 m ρ c (Proc.devRef .tc main_arg6) = W5 m ρ c (Proc.devRef .tc main_arg6) := W6_of_ne m ρ c main_arg6 (by decide)
/-- `arg6` at boundary 6 is as launched. -/
theorem arg6_at6 : W6 m ρ c (Proc.devRef .tc main_arg6) = m ((c : Thread nD τ).loc main_arg6) :=
  ((arg6_keep6 m ρ c).trans ((arg6_keep5 m ρ c).trans ((arg6_keep4 m ρ c).trans ((arg6_keep3 m ρ c).trans ((arg6_keep2 m ρ c).trans (arg6_keep1 m ρ c)))))).trans rfl

theorem arg2_keep1 : W1 m ρ c (Proc.devRef .tc main_arg2) = W0 m ρ c (Proc.devRef .tc main_arg2) := by host_keep hostOps0
theorem arg2_keep2 : W2 m ρ c (Proc.devRef .tc main_arg2) = W1 m ρ c (Proc.devRef .tc main_arg2) := by host_keep hostOps0_1
theorem arg2_keep3 : W3 m ρ c (Proc.devRef .tc main_arg2) = W2 m ρ c (Proc.devRef .tc main_arg2) := by host_keep hostOps0_2
theorem arg2_keep4 : W4 m ρ c (Proc.devRef .tc main_arg2) = W3 m ρ c (Proc.devRef .tc main_arg2) := W4_of_ne m ρ c main_arg2 (by decide)
theorem arg2_keep5 : W5 m ρ c (Proc.devRef .tc main_arg2) = W4 m ρ c (Proc.devRef .tc main_arg2) := by host_keep hostOps1
theorem arg2_keep6 : W6 m ρ c (Proc.devRef .tc main_arg2) = W5 m ρ c (Proc.devRef .tc main_arg2) := W6_of_ne m ρ c main_arg2 (by decide)
theorem arg2_keep7 : W7 m ρ c (Proc.devRef .tc main_arg2) = W6 m ρ c (Proc.devRef .tc main_arg2) := by host_keep hostOps2
theorem arg2_keep8 : W8 m ρ c (Proc.devRef .tc main_arg2) = W7 m ρ c (Proc.devRef .tc main_arg2) := W8_of_ne m ρ c main_arg2 (by decide)
/-- `arg2` at boundary 8 is as launched. -/
theorem arg2_at8 : W8 m ρ c (Proc.devRef .tc main_arg2) = m ((c : Thread nD τ).loc main_arg2) :=
  ((arg2_keep8 m ρ c).trans ((arg2_keep7 m ρ c).trans ((arg2_keep6 m ρ c).trans ((arg2_keep5 m ρ c).trans ((arg2_keep4 m ρ c).trans ((arg2_keep3 m ρ c).trans ((arg2_keep2 m ρ c).trans (arg2_keep1 m ρ c)))))))).trans rfl

theorem arg8_keep1 : W1 m ρ c (Proc.devRef .tc main_arg8) = W0 m ρ c (Proc.devRef .tc main_arg8) := by host_keep hostOps0
theorem arg8_keep2 : W2 m ρ c (Proc.devRef .tc main_arg8) = W1 m ρ c (Proc.devRef .tc main_arg8) := by host_keep hostOps0_1
theorem arg8_keep3 : W3 m ρ c (Proc.devRef .tc main_arg8) = W2 m ρ c (Proc.devRef .tc main_arg8) := by host_keep hostOps0_2
theorem arg8_keep4 : W4 m ρ c (Proc.devRef .tc main_arg8) = W3 m ρ c (Proc.devRef .tc main_arg8) := W4_of_ne m ρ c main_arg8 (by decide)
theorem arg8_keep5 : W5 m ρ c (Proc.devRef .tc main_arg8) = W4 m ρ c (Proc.devRef .tc main_arg8) := by host_keep hostOps1
theorem arg8_keep6 : W6 m ρ c (Proc.devRef .tc main_arg8) = W5 m ρ c (Proc.devRef .tc main_arg8) := W6_of_ne m ρ c main_arg8 (by decide)
theorem arg8_keep7 : W7 m ρ c (Proc.devRef .tc main_arg8) = W6 m ρ c (Proc.devRef .tc main_arg8) := by host_keep hostOps2
theorem arg8_keep8 : W8 m ρ c (Proc.devRef .tc main_arg8) = W7 m ρ c (Proc.devRef .tc main_arg8) := W8_of_ne m ρ c main_arg8 (by decide)
/-- `arg8` at boundary 8 is as launched. -/
theorem arg8_at8 : W8 m ρ c (Proc.devRef .tc main_arg8) = m ((c : Thread nD τ).loc main_arg8) :=
  ((arg8_keep8 m ρ c).trans ((arg8_keep7 m ρ c).trans ((arg8_keep6 m ρ c).trans ((arg8_keep5 m ρ c).trans ((arg8_keep4 m ρ c).trans ((arg8_keep3 m ρ c).trans ((arg8_keep2 m ρ c).trans (arg8_keep1 m ρ c)))))))).trans rfl

theorem arg10_keep1 : W1 m ρ c (Proc.devRef .tc main_arg10) = W0 m ρ c (Proc.devRef .tc main_arg10) := by host_keep hostOps0
theorem arg10_keep2 : W2 m ρ c (Proc.devRef .tc main_arg10) = W1 m ρ c (Proc.devRef .tc main_arg10) := by host_keep hostOps0_1
theorem arg10_keep3 : W3 m ρ c (Proc.devRef .tc main_arg10) = W2 m ρ c (Proc.devRef .tc main_arg10) := by host_keep hostOps0_2
theorem arg10_keep4 : W4 m ρ c (Proc.devRef .tc main_arg10) = W3 m ρ c (Proc.devRef .tc main_arg10) := W4_of_ne m ρ c main_arg10 (by decide)
theorem arg10_keep5 : W5 m ρ c (Proc.devRef .tc main_arg10) = W4 m ρ c (Proc.devRef .tc main_arg10) := by host_keep hostOps1
theorem arg10_keep6 : W6 m ρ c (Proc.devRef .tc main_arg10) = W5 m ρ c (Proc.devRef .tc main_arg10) := W6_of_ne m ρ c main_arg10 (by decide)
theorem arg10_keep7 : W7 m ρ c (Proc.devRef .tc main_arg10) = W6 m ρ c (Proc.devRef .tc main_arg10) := by host_keep hostOps2
theorem arg10_keep8 : W8 m ρ c (Proc.devRef .tc main_arg10) = W7 m ρ c (Proc.devRef .tc main_arg10) := W8_of_ne m ρ c main_arg10 (by decide)
/-- `arg10` at boundary 8 is as launched. -/
theorem arg10_at8 : W8 m ρ c (Proc.devRef .tc main_arg10) = m ((c : Thread nD τ).loc main_arg10) :=
  ((arg10_keep8 m ρ c).trans ((arg10_keep7 m ρ c).trans ((arg10_keep6 m ρ c).trans ((arg10_keep5 m ρ c).trans ((arg10_keep4 m ρ c).trans ((arg10_keep3 m ρ c).trans ((arg10_keep2 m ρ c).trans (arg10_keep1 m ρ c)))))))).trans rfl

theorem arg7_keep1 : W1 m ρ c (Proc.devRef .tc main_arg7) = W0 m ρ c (Proc.devRef .tc main_arg7) := by host_keep hostOps0
theorem arg7_keep2 : W2 m ρ c (Proc.devRef .tc main_arg7) = W1 m ρ c (Proc.devRef .tc main_arg7) := by host_keep hostOps0_1
theorem arg7_keep3 : W3 m ρ c (Proc.devRef .tc main_arg7) = W2 m ρ c (Proc.devRef .tc main_arg7) := by host_keep hostOps0_2
theorem arg7_keep4 : W4 m ρ c (Proc.devRef .tc main_arg7) = W3 m ρ c (Proc.devRef .tc main_arg7) := W4_of_ne m ρ c main_arg7 (by decide)
theorem arg7_keep5 : W5 m ρ c (Proc.devRef .tc main_arg7) = W4 m ρ c (Proc.devRef .tc main_arg7) := by host_keep hostOps1
theorem arg7_keep6 : W6 m ρ c (Proc.devRef .tc main_arg7) = W5 m ρ c (Proc.devRef .tc main_arg7) := W6_of_ne m ρ c main_arg7 (by decide)
theorem arg7_keep7 : W7 m ρ c (Proc.devRef .tc main_arg7) = W6 m ρ c (Proc.devRef .tc main_arg7) := by host_keep hostOps2
theorem arg7_keep8 : W8 m ρ c (Proc.devRef .tc main_arg7) = W7 m ρ c (Proc.devRef .tc main_arg7) := W8_of_ne m ρ c main_arg7 (by decide)
theorem arg7_keep9 : W9 m ρ c (Proc.devRef .tc main_arg7) = W8 m ρ c (Proc.devRef .tc main_arg7) := by host_keep hostOps3
/-- `arg7` at boundary 9 is as launched. -/
theorem arg7_at9 : W9 m ρ c (Proc.devRef .tc main_arg7) = m ((c : Thread nD τ).loc main_arg7) :=
  ((arg7_keep9 m ρ c).trans ((arg7_keep8 m ρ c).trans ((arg7_keep7 m ρ c).trans ((arg7_keep6 m ρ c).trans ((arg7_keep5 m ρ c).trans ((arg7_keep4 m ρ c).trans ((arg7_keep3 m ρ c).trans ((arg7_keep2 m ρ c).trans (arg7_keep1 m ρ c))))))))).trans rfl

theorem arg9_keep1 : W1 m ρ c (Proc.devRef .tc main_arg9) = W0 m ρ c (Proc.devRef .tc main_arg9) := by host_keep hostOps0
theorem arg9_keep2 : W2 m ρ c (Proc.devRef .tc main_arg9) = W1 m ρ c (Proc.devRef .tc main_arg9) := by host_keep hostOps0_1
theorem arg9_keep3 : W3 m ρ c (Proc.devRef .tc main_arg9) = W2 m ρ c (Proc.devRef .tc main_arg9) := by host_keep hostOps0_2
theorem arg9_keep4 : W4 m ρ c (Proc.devRef .tc main_arg9) = W3 m ρ c (Proc.devRef .tc main_arg9) := W4_of_ne m ρ c main_arg9 (by decide)
theorem arg9_keep5 : W5 m ρ c (Proc.devRef .tc main_arg9) = W4 m ρ c (Proc.devRef .tc main_arg9) := by host_keep hostOps1
theorem arg9_keep6 : W6 m ρ c (Proc.devRef .tc main_arg9) = W5 m ρ c (Proc.devRef .tc main_arg9) := W6_of_ne m ρ c main_arg9 (by decide)
theorem arg9_keep7 : W7 m ρ c (Proc.devRef .tc main_arg9) = W6 m ρ c (Proc.devRef .tc main_arg9) := by host_keep hostOps2
theorem arg9_keep8 : W8 m ρ c (Proc.devRef .tc main_arg9) = W7 m ρ c (Proc.devRef .tc main_arg9) := W8_of_ne m ρ c main_arg9 (by decide)
theorem arg9_keep9 : W9 m ρ c (Proc.devRef .tc main_arg9) = W8 m ρ c (Proc.devRef .tc main_arg9) := by host_keep hostOps3
/-- `arg9` at boundary 9 is as launched. -/
theorem arg9_at9 : W9 m ρ c (Proc.devRef .tc main_arg9) = m ((c : Thread nD τ).loc main_arg9) :=
  ((arg9_keep9 m ρ c).trans ((arg9_keep8 m ρ c).trans ((arg9_keep7 m ρ c).trans ((arg9_keep6 m ρ c).trans ((arg9_keep5 m ρ c).trans ((arg9_keep4 m ρ c).trans ((arg9_keep3 m ρ c).trans ((arg9_keep2 m ρ c).trans (arg9_keep1 m ρ c))))))))).trans rfl

theorem v3_keep2 : W2 m ρ c (Proc.devRef .tc main_v3) = W1 m ρ c (Proc.devRef .tc main_v3) := by host_keep hostOps0_1
theorem v3_keep3 : W3 m ρ c (Proc.devRef .tc main_v3) = W2 m ρ c (Proc.devRef .tc main_v3) := by host_keep hostOps0_2
theorem v3_keep4 : W4 m ρ c (Proc.devRef .tc main_v3) = W3 m ρ c (Proc.devRef .tc main_v3) := W4_of_ne m ρ c main_v3 (by decide)
theorem v3_keep5 : W5 m ρ c (Proc.devRef .tc main_v3) = W4 m ρ c (Proc.devRef .tc main_v3) := by host_keep hostOps1
theorem v3_keep6 : W6 m ρ c (Proc.devRef .tc main_v3) = W5 m ρ c (Proc.devRef .tc main_v3) := W6_of_ne m ρ c main_v3 (by decide)

theorem v6_keep2 : W2 m ρ c (Proc.devRef .tc main_v6) = W1 m ρ c (Proc.devRef .tc main_v6) := by host_keep hostOps0_1
theorem v6_keep3 : W3 m ρ c (Proc.devRef .tc main_v6) = W2 m ρ c (Proc.devRef .tc main_v6) := by host_keep hostOps0_2
theorem v6_keep4 : W4 m ρ c (Proc.devRef .tc main_v6) = W3 m ρ c (Proc.devRef .tc main_v6) := W4_of_ne m ρ c main_v6 (by decide)
theorem v6_keep5 : W5 m ρ c (Proc.devRef .tc main_v6) = W4 m ρ c (Proc.devRef .tc main_v6) := by host_keep hostOps1
theorem v6_keep6 : W6 m ρ c (Proc.devRef .tc main_v6) = W5 m ρ c (Proc.devRef .tc main_v6) := W6_of_ne m ρ c main_v6 (by decide)

theorem v31_keep4 : W4 m ρ c (Proc.devRef .tc main_v31) = W3 m ρ c (Proc.devRef .tc main_v31) := W4_of_ne m ρ c main_v31 (by decide)
theorem v31_keep5 : W5 m ρ c (Proc.devRef .tc main_v31) = W4 m ρ c (Proc.devRef .tc main_v31) := by host_keep hostOps1
theorem v31_keep6 : W6 m ρ c (Proc.devRef .tc main_v31) = W5 m ρ c (Proc.devRef .tc main_v31) := W6_of_ne m ρ c main_v31 (by decide)

end Cert.KernelIdeal.Carried

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.NodeProject.lean ====
/-
  The first region: the node features times the first weight matrix.

  The region walks the 100000 rows in 20 blocks of 5000. At a block the body multiplies the block of the feature
  array by the whole weight array into a zero accumulator; a change of float format is the identity on the
  extended reals. So the entry at (p, q) of the block is the sum over a < 5 of feature(p, a) · weight(a, q), the
  blocks are restrictions of one product of the whole arrays, and the 20 blocks cover the output array.
-/
import proofs.«130339_j90589450207900_1_alg».proof.Proof.Gen.KernelIdeal.Frame
import proofs.«130339_j90589450207900_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeProject

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of the whole arrays, entry by entry. -/
def prod (x : S100000x5.Idx → Elt Ideal .f32) (w : S5x64.Idx → Elt Ideal .f32) : S100000x64.Idx → Elt Ideal .f32 :=
  fun i => ∑ k : Fin 5, x (ix2 (i 0) k) * w (ix2 k (i 1))

theorem dot_S5000x5_S5x64_S5000x64_1_0_0_1_n_n_l0 (i : S5000x64.Idx) (q : dot_S5000x5_S5x64_S5000x64_1_0_0_1_n_n.contr.Idx) : (dot_S5000x5_S5x64_S5000x64_1_0_0_1_n_n.lhsIdx i q 0).val = (i 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
theorem dot_S5000x5_S5x64_S5000x64_1_0_0_1_n_n_l1 (i : S5000x64.Idx) (q : dot_S5000x5_S5x64_S5000x64_1_0_0_1_n_n.contr.Idx) : (dot_S5000x5_S5x64_S5000x64_1_0_0_1_n_n.lhsIdx i q 1).val = (q ⟨0, by decide⟩).val :=
  dot_S5000x5_S5x64_S5000x64_1_0_0_1_n_n.lhsIdx_val_of_single rfl i q
theorem dot_S5000x5_S5x64_S5000x64_1_0_0_1_n_n_r0 (i : S5000x64.Idx) (q : dot_S5000x5_S5x64_S5000x64_1_0_0_1_n_n.contr.Idx) : (dot_S5000x5_S5x64_S5000x64_1_0_0_1_n_n.rhsIdx i q 0).val = (q ⟨0, by decide⟩).val :=
  dot_S5000x5_S5x64_S5000x64_1_0_0_1_n_n.rhsIdx_val_of_single rfl i q
theorem dot_S5000x5_S5x64_S5000x64_1_0_0_1_n_n_r1 (i : S5000x64.Idx) (q : dot_S5000x5_S5x64_S5000x64_1_0_0_1_n_n.contr.Idx) : (dot_S5000x5_S5x64_S5000x64_1_0_0_1_n_n.rhsIdx i q 1).val = (i 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-- The body's stored value at (p, q): the row p of the feature block against the column q of the weights. -/
theorem pay_apply (x0 : Vec Ideal S5000x5 .f32) (x1 : Vec Ideal S5x64 .f32) (p : Fin 5000) (q : Fin 64) :
    k0_pay1 x0 x1 (ix2 p q) = ∑ a : Fin 5, x0 (ix2 p a) * x1 (ix2 a q) := by
  unfold k0_pay1
  exact LibMatmulRows.matmul_zero_ix2 dot_S5000x5_S5x64_S5000x64_1_0_0_1_n_n rfl rfl dot_S5000x5_S5x64_S5000x64_1_0_0_1_n_n_l0 dot_S5000x5_S5x64_S5000x64_1_0_0_1_n_n_l1 dot_S5000x5_S5x64_S5000x64_1_0_0_1_n_n_r0 dot_S5000x5_S5x64_S5000x64_1_0_0_1_n_n_r1 none _ _ p q

/-- The block index maps over the grid: the feature block moves with the output block along the rows, the weight
    block stays put, and the output's row-block index is below 20. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point t writes back is block t of the product of the arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x5) hz, View.ld_unit_zero (S := S5x64) hz]
  obtain ⟨e0, e1, e2, e3, e4, e5⟩ := idx_facts t
  refine funext fun (j : S5000x64.Idx) => ?_
  obtain ⟨p, q, rfl⟩ : ∃ (p : Fin 5000) (q : Fin 64), j = ix2 p q := ⟨j 0, j 1, eq_ix2 j⟩
  show k0_pay1 (iblk0 V c 0 t) (iblk0 V c 1 t) (ix2 p q) = prod (V c main_arg0) (V c main_arg3) (((cfg0.win 2).blk t).view.emb (ix2 p q))
  refine (pay_apply (iblk0 V c 0 t) (iblk0 V c 1 t) p q).trans ?_
  unfold prod
  refine Finset.sum_congr rfl fun a _ => ?_
  have h0 : iblk0 V c 0 t (ix2 p a) = V c main_arg0 (ix2 ((((cfg0.win 2).blk t).view.emb (ix2 p q)) 0) a) := by
    show V c main_arg0 (((cfg0.win 0).blk t).view.emb (ix2 p a)) = _
    refine congrArg (V c main_arg0) (funext fun ax => Fin.ext ?_)
    match ax with
    | ⟨0, _⟩ => show win0_0.index t (0 : Fin 2) * 5000 + 1 * p.val = win0_2.index t (0 : Fin 2) * 5000 + 1 * p.val; omega
    | ⟨1, _⟩ => show win0_0.index t (1 : Fin 2) * 5 + 1 * a.val = a.val; omega
  have h1 : iblk0 V c 1 t (ix2 a q) = V c main_arg3 (ix2 a ((((cfg0.win 2).blk t).view.emb (ix2 p q)) 1)) := by
    show V c main_arg3 (((cfg0.win 1).blk t).view.emb (ix2 a q)) = _
    refine congrArg (V c main_arg3) (funext fun ax => Fin.ext ?_)
    match ax with
    | ⟨0, _⟩ => show win0_1.index t (0 : Fin 2) * 5 + 1 * a.val = a.val; omega
    | ⟨1, _⟩ => show win0_1.index t (1 : Fin 2) * 64 + 1 * q.val = win0_2.index t (1 : Fin 2) * 64 + 1 * q.val; omega
  rw [h0, h1]

/-- An index of the output array lies in point t's block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The row r of the output lies in the block of the point whose row-block index is r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the product of the two arrays as the region finds them. -/
theorem value (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.NodeProject

end
-- ==== Proof.HiddenProject.lean ====
/-
  The second region: bias, rectifier and the second weight matrix, fused.

  The region walks the 100000 rows of the first layer's aggregate in 20 blocks of 5000. At a block the body adds the
  bias row to every row, takes the maximum with zero and multiplies by the whole weight array into a zero
  accumulator. The entry at (p, q) of the block is the sum over a < 64 of max(agg(p, a) + bias(a), 0) · weight(a, q);
  the blocks are restrictions of that one function of the whole arrays and cover the output array.
-/
import proofs.«130339_j90589450207900_1_alg».proof.Proof.Gen.KernelIdeal.Frame
import proofs.«130339_j90589450207900_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HiddenProject

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Bias, rectifier and product of the whole arrays, entry by entry. -/
def hidden (x : S100000x64.Idx → Elt Ideal .f32) (b : S1x64.Idx → Elt Ideal .f32) (w : S64x64.Idx → Elt Ideal .f32) :
    S100000x64.Idx → Elt Ideal .f32 :=
  fun i => ∑ k : Fin 64, max (x (ix2 (i 0) k) + b (ix2 (0 : Fin 1) k)) (Ideal.ofBits .f32 0x00000000#32) * w (ix2 k (i 1))

theorem dot_S5000x64_S64x64_S5000x64_1_0_0_1_n_n_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dot_S5000x64_S64x64_S5000x64_1_0_0_1_n_n_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem dot_S5000x64_S64x64_S5000x64_1_0_0_1_n_n_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem dot_S5000x64_S64x64_S5000x64_1_0_0_1_n_n_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's stored value at (p, q). -/
theorem pay_apply (x0 : Vec Ideal S5000x64 .f32) (x1 : Vec Ideal S1x64 .f32) (x2 : Vec Ideal S64x64 .f32) (p : Fin 5000) (q : Fin 64) :
    k1_pay1 x0 x1 x2 (ix2 p q) = ∑ a : Fin 64, max (x0 (ix2 p a) + x1 (ix2 (0 : Fin 1) a)) (Ideal.ofBits .f32 0x00000000#32) * x2 (ix2 a q) := by
  unfold k1_pay1
  refine (LibMatmulRows.matmul_zero_ix2 dot_S5000x64_S64x64_S5000x64_1_0_0_1_n_n rfl rfl dot_S5000x64_S64x64_S5000x64_1_0_0_1_n_n_l0 dot_S5000x64_S64x64_S5000x64_1_0_0_1_n_n_l1 dot_S5000x64_S64x64_S5000x64_1_0_0_1_n_n_r0 dot_S5000x64_S64x64_S5000x64_1_0_0_1_n_n_r1 none _ _ p q).trans ?_
  refine Finset.sum_congr rfl fun a _ => ?_
  have e0 : shapeCast S5000x64 x0 shapeCasts_S5000x64_S5000x64 = x0 := shapeCast_self _ _
  have e1 : shapeCast S1x64 x1 shapeCasts_S1x64_S1x64 = x1 := shapeCast_self _ _
  have e2 : broadcastTo S5000x64 x1 broadcasts_S1x64_S5000x64 (ix2 p a) = x1 (ix2 (0 : Fin 1) a) := broadcastTo_1b_ab_apply x1 _ p a
  show max ((shapeCast S5000x64 x0 shapeCasts_S5000x64_S5000x64) (ix2 p a) + (broadcastTo S5000x64 (shapeCast S1x64 x1 shapeCasts_S1x64_S1x64) broadcasts_S1x64_S5000x64) (ix2 p a)) (Ideal.ofBits .f32 0x00000000#32) * x2 (ix2 a q) = _
  rw [e0, e1, e2]

/-- The block index maps over the grid: the aggregate's block moves with the output block along the rows, the bias and
    weight blocks stay put, and the output's row-block index is below 20. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every row block is some point's. -/
theorem idx_onto : ∀ q0 : Fin 20, ∃ t : Fin cfg1.N, win1_3.index t = ![q0.val, 0] :=
  (by decide +kernel : ∀ q0 : Fin 20, ∃ t : Fin grid1.N, win1_3.index t = ![q0.val, 0])

/-- What point t writes back is block t of that function of the arrays as the region finds them. -/
theorem flushed_eq (c : Dev nD) (t : Fin cfg1.N) :
    (dat1 V c).flushed 3 t = ((cfg1.win 3).blk t).view.read (Elt Ideal) (hidden (V c main_v45) (V c main_v46) (V c main_arg5)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  obtain ⟨e0, e1, e2, e3, e4, e5, e6, e7⟩ := idx_facts t
  refine funext fun (j : S5000x64.Idx) => ?_
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q) = hidden (V c main_v45) (V c main_v46) (V c main_arg5) (((cfg1.win 3).blk t).view.emb (ix2 p q))
  refine (pay_apply (iblk1 V c 0 t) (iblk1 V c 1 t) (iblk1 V c 2 t) p q).trans ?_
  unfold hidden
  refine Finset.sum_congr rfl fun a _ => ?_
  have h0 : iblk1 V c 0 t (ix2 p a) = V c main_v45 (ix2 ((((cfg1.win 3).blk t).view.emb (ix2 p q)) 0) a) := by
    show V c main_v45 (((cfg1.win 0).blk t).view.emb (ix2 p a)) = _
    refine congrArg (V c main_v45) (funext fun ax => Fin.ext ?_)
    match ax with
    | ⟨0, _⟩ => show win1_0.index t (0 : Fin 2) * 5000 + 1 * p.val = win1_3.index t (0 : Fin 2) * 5000 + 1 * p.val; omega
    | ⟨1, _⟩ => show win1_0.index t (1 : Fin 2) * 64 + 1 * a.val = a.val; omega
  have h1 : iblk1 V c 1 t (ix2 (0 : Fin 1) a) = V c main_v46 (ix2 (0 : Fin 1) a) := by
    show V c main_v46 (((cfg1.win 1).blk t).view.emb (ix2 (0 : Fin 1) a)) = _
    refine congrArg (V c main_v46) (funext fun ax => Fin.ext ?_)
    match ax with
    | ⟨0, _⟩ => show win1_1.index t (0 : Fin 2) * 1 + 1 * (0 : Fin 1).val = (0 : Fin 1).val; simp only [Fin.val_zero]; omega
    | ⟨1, _⟩ => show win1_1.index t (1 : Fin 2) * 64 + 1 * a.val = a.val; omega
  have h2 : iblk1 V c 2 t (ix2 a q) = V c main_arg5 (ix2 a ((((cfg1.win 3).blk t).view.emb (ix2 p q)) 1)) := by
    show V c main_arg5 (((cfg1.win 2).blk t).view.emb (ix2 a q)) = _
    refine congrArg (V c main_arg5) (funext fun ax => Fin.ext ?_)
    match ax with
    | ⟨0, _⟩ => show win1_2.index t (0 : Fin 2) * 64 + 1 * a.val = a.val; omega
    | ⟨1, _⟩ => show win1_2.index t (1 : Fin 2) * 64 + 1 * q.val = win1_3.index t (1 : Fin 2) * 64 + 1 * q.val; omega
  rw [h0, h1, h2]

/-- An index of the output array lies in point t's block iff each coordinate is in the block's range. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- The row r of the output lies in the block of the point whose row-block index is r / 5000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region, as one function of the three arrays as the region finds them. -/
theorem value (c : Dev nD) : (dat1 V c).arrAt 3 cfg1.N = hidden (V c main_v45) (V c main_v46) (V c main_arg5) :=
  (dat1 V c).arrAt_eq_of_cover 3 (hidden (V c main_v45) (V c main_v46) (V c main_arg5)) (fun t _ => flushed_eq V c t) cover

end Cert.KernelIdeal.HiddenProject

end
-- ==== Proof.HiddenActivate.lean ====
/-
  The third region: bias and rectifier of the second layer's aggregate.

  The region walks the 100000 rows in 20 blocks of 5000; at a block the body adds the bias row to every row and takes
  the maximum with zero. The entry at (p, q) is max(agg(p, q) + bias(q), 0): the blocks are restrictions of that one
  function of the whole arrays and cover the output array.
-/
import proofs.«130339_j90589450207900_1_alg».proof.Proof.Gen.KernelIdeal.Frame
import proofs.«130339_j90589450207900_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HiddenActivate

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Bias and rectifier of the whole array, entry by entry. -/
def activate (x : S100000x64.Idx → Elt Ideal .f32) (b : S1x64.Idx → Elt Ideal .f32) : S100000x64.Idx → Elt Ideal .f32 :=
  fun i => max (x i + b (ix2 (0 : Fin 1) (i 1))) (Ideal.ofBits .f32 0x00000000#32)

/-- The body's stored value at (p, q). -/
theorem pay_apply (x0 : Vec Ideal S5000x64 .f32) (x1 : Vec Ideal S1x64 .f32) (p : Fin 5000) (q : Fin 64) :
    k2_pay1 x0 x1 (ix2 p q) = max (x0 (ix2 p q) + x1 (ix2 (0 : Fin 1) q)) (Ideal.ofBits .f32 0x00000000#32) := by
  unfold k2_pay1
  have e0 : shapeCast S5000x64 x0 shapeCasts_S5000x64_S5000x64 = x0 := shapeCast_self _ _
  have e1 : shapeCast S1x64 x1 shapeCasts_S1x64_S1x64 = x1 := shapeCast_self _ _
  have e2 : broadcastTo S5000x64 x1 broadcasts_S1x64_S5000x64 (ix2 p q) = x1 (ix2 (0 : Fin 1) q) := broadcastTo_1b_ab_apply x1 _ p q
  show max ((shapeCast S5000x64 x0 shapeCasts_S5000x64_S5000x64) (ix2 p q) + (broadcastTo S5000x64 (shapeCast S1x64 x1 shapeCasts_S1x64_S1x64) broadcasts_S1x64_S5000x64) (ix2 p q)) (Ideal.ofBits .f32 0x00000000#32) = _
  rw [e0, e1, e2]

/-- The block index maps over the grid: the aggregate's block is the output's, the bias block stays put, and the
    output's row-block index is below 20. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every row block is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What point t writes back is block t of that function of the arrays as the region finds them. -/
theorem flushed_eq (c : Dev nD) (t : Fin cfg2.N) :
    (dat2 V c).flushed 2 t = ((cfg2.win 2).blk t).view.read (Elt Ideal) (activate (V c main_v60) (V c main_v61)) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  obtain ⟨e0, e1, e2, e3, e4, e5⟩ := idx_facts t
  refine funext fun (j : S5000x64.Idx) => ?_
  obtain ⟨p, q, rfl⟩ : ∃ (p : Fin 5000) (q : Fin 64), j = ix2 p q := ⟨j 0, j 1, eq_ix2 j⟩
  show k2_pay1 (iblk2 V c 0 t) (iblk2 V c 1 t) (ix2 p q) = activate (V c main_v60) (V c main_v61) (((cfg2.win 2).blk t).view.emb (ix2 p q))
  refine (pay_apply (iblk2 V c 0 t) (iblk2 V c 1 t) p q).trans ?_
  unfold activate
  have h0 : iblk2 V c 0 t (ix2 p q) = V c main_v60 (((cfg2.win 2).blk t).view.emb (ix2 p q)) := by
    show V c main_v60 (((cfg2.win 0).blk t).view.emb (ix2 p q)) = _
    refine congrArg (V c main_v60) (funext fun ax => Fin.ext ?_)
    match ax with
    | ⟨0, _⟩ => show win2_0.index t (0 : Fin 2) * 5000 + 1 * p.val = win2_2.index t (0 : Fin 2) * 5000 + 1 * p.val; omega
    | ⟨1, _⟩ => show win2_0.index t (1 : Fin 2) * 64 + 1 * q.val = win2_2.index t (1 : Fin 2) * 64 + 1 * q.val; omega
  have h1 : iblk2 V c 1 t (ix2 (0 : Fin 1) q) = V c main_v61 (ix2 (0 : Fin 1) ((((cfg2.win 2).blk t).view.emb (ix2 p q)) 1)) := by
    show V c main_v61 (((cfg2.win 1).blk t).view.emb (ix2 (0 : Fin 1) q)) = _
    refine congrArg (V c main_v61) (funext fun ax => Fin.ext ?_)
    match ax with
    | ⟨0, _⟩ => show win2_1.index t (0 : Fin 2) * 1 + 1 * (0 : Fin 1).val = (0 : Fin 1).val; simp only [Fin.val_zero]; omega
    | ⟨1, _⟩ => show win2_1.index t (1 : Fin 2) * 64 + 1 * q.val = win2_2.index t (1 : Fin 2) * 64 + 1 * q.val; omega
  rw [h0, h1]

/-- An index of the output array lies in point t's block iff each coordinate is in the block's range. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v62).slice (win2_2.rect t)).set ↔ _
  rw [View.set_slice_whole, Rect.mem_set_unit]
  exact Iff.rfl

/-- The row r of the output lies in the block of the point whose row-block index is r / 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region, as one function of the two arrays as the region finds them. -/
theorem value (c : Dev nD) : (dat2 V c).arrAt 2 cfg2.N = activate (V c main_v60) (V c main_v61) :=
  (dat2 V c).arrAt_eq_of_cover 2 (activate (V c main_v60) (V c main_v61)) (fun t _ => flushed_eq V c t) cover

end Cert.KernelIdeal.HiddenActivate

end
-- ==== Proof.Head.lean ====
/-
  The fourth region: the two-layer head on the pooled graph features, in one block.

  The region has one grid point and every window's block is its whole array. The body multiplies the pooled features
  by the third weight matrix into a zero accumulator, adds the bias row, takes the maximum with zero, multiplies by the
  fourth weight matrix into a zero accumulator and adds the last bias row. So the entry at (p, q) of the result is
  Σ_k max(Σ_j pooled(p, j) · W3(j, k) + b3(k), 0) · W4(k, q) + b4(q), and the one block is the whole output array.
-/
import proofs.«130339_j90589450207900_1_alg».proof.Proof.Gen.KernelIdeal.Frame
import proofs.«130339_j90589450207900_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The head of the whole arrays, entry by entry. -/
def head (x : S2048x64.Idx → Elt Ideal .f32) (w3 : S64x64.Idx → Elt Ideal .f32) (b3 : S1x64.Idx → Elt Ideal .f32)
    (w4 : S64x128.Idx → Elt Ideal .f32) (b4 : S1x128.Idx → Elt Ideal .f32) : S2048x128.Idx → Elt Ideal .f32 :=
  fun i => (∑ k : Fin 64, max ((∑ j : Fin 64, x (ix2 (i 0) j) * w3 (ix2 j k)) + b3 (ix2 (0 : Fin 1) k)) (Ideal.ofBits .f32 0x00000000#32) * w4 (ix2 k (i 1))) + b4 (ix2 (0 : Fin 1) (i 1))

theorem dot_S2048x64_S64x64_S2048x64_1_0_0_1_n_n_l0 (i : S2048x64.Idx) (q : dot_S2048x64_S64x64_S2048x64_1_0_0_1_n_n.contr.Idx) : (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem dot_S2048x64_S64x64_S2048x64_1_0_0_1_n_n_l1 (i : S2048x64.Idx) (q : dot_S2048x64_S64x64_S2048x64_1_0_0_1_n_n.contr.Idx) : (dot_S2048x64_S64x64_S2048x64_1_0_0_1_n_n.lhsIdx i q 1).val = (q ⟨0, by decide⟩).val :=
  dot_S2048x64_S64x64_S2048x64_1_0_0_1_n_n.lhsIdx_val_of_single rfl i q
theorem dot_S2048x64_S64x64_S2048x64_1_0_0_1_n_n_r0 (i : S2048x64.Idx) (q : dot_S2048x64_S64x64_S2048x64_1_0_0_1_n_n.contr.Idx) : (dot_S2048x64_S64x64_S2048x64_1_0_0_1_n_n.rhsIdx i q 0).val = (q ⟨0, by decide⟩).val :=
  dot_S2048x64_S64x64_S2048x64_1_0_0_1_n_n.rhsIdx_val_of_single rfl i q
theorem dot_S2048x64_S64x64_S2048x64_1_0_0_1_n_n_r1 (i : S2048x64.Idx) (q : dot_S2048x64_S64x64_S2048x64_1_0_0_1_n_n.contr.Idx) : (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

theorem dot_S2048x64_S64x128_S2048x128_1_0_0_1_n_n_l0 (i : S2048x128.Idx) (q : dot_S2048x64_S64x128_S2048x128_1_0_0_1_n_n.contr.Idx) : (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl
theorem dot_S2048x64_S64x128_S2048x128_1_0_0_1_n_n_l1 (i : S2048x128.Idx) (q : dot_S2048x64_S64x128_S2048x128_1_0_0_1_n_n.contr.Idx) : (dot_S2048x64_S64x128_S2048x128_1_0_0_1_n_n.lhsIdx i q 1).val = (q ⟨0, by decide⟩).val :=
  dot_S2048x64_S64x128_S2048x128_1_0_0_1_n_n.lhsIdx_val_of_single rfl i q
theorem dot_S2048x64_S64x128_S2048x128_1_0_0_1_n_n_r0 (i : S2048x128.Idx) (q : dot_S2048x64_S64x128_S2048x128_1_0_0_1_n_n.contr.Idx) : (dot_S2048x64_S64x128_S2048x128_1_0_0_1_n_n.rhsIdx i q 0).val = (q ⟨0, by decide⟩).val :=
  dot_S2048x64_S64x128_S2048x128_1_0_0_1_n_n.rhsIdx_val_of_single rfl i q
theorem dot_S2048x64_S64x128_S2048x128_1_0_0_1_n_n_r1 (i : S2048x128.Idx) (q : dot_S2048x64_S64x128_S2048x128_1_0_0_1_n_n.contr.Idx) : (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl

/-- The body's stored value at (p, q). -/
theorem pay_apply (x0 : Vec Ideal S2048x64 .f32) (x1 : Vec Ideal S64x64 .f32) (x2 : Vec Ideal S1x64 .f32) (x3 : Vec Ideal S64x128 .f32)
    (x4 : Vec Ideal S1x128 .f32) (p : Fin 2048) (q : Fin 128) :
    k3_pay1 x0 x1 x2 x3 x4 (ix2 p q) = (∑ k : Fin 64, max ((∑ j : Fin 64, x0 (ix2 p j) * x1 (ix2 j k)) + x2 (ix2 (0 : Fin 1) k)) (Ideal.ofBits .f32 0x00000000#32) * x3 (ix2 k q)) + x4 (ix2 (0 : Fin 1) q) := by
  unfold k3_pay1
  have e0 : shapeCast S2048x64 x0 shapeCasts_S2048x64_S2048x64 = x0 := shapeCast_self _ _
  have e2 : shapeCast S1x64 x2 shapeCasts_S1x64_S1x64 = x2 := shapeCast_self _ _
  have e4 : shapeCast S1x128 x4 shapeCasts_S1x128_S1x128 = x4 := shapeCast_self _ _
  have b2 : ∀ k : Fin 64, broadcastTo S2048x64 x2 broadcasts_S1x64_S2048x64 (ix2 p k) = x2 (ix2 (0 : Fin 1) k) := fun k => broadcastTo_1b_ab_apply x2 _ p k
  have b4 : broadcastTo S2048x128 x4 broadcasts_S1x128_S2048x128 (ix2 p q) = x4 (ix2 (0 : Fin 1) q) := broadcastTo_1b_ab_apply x4 _ p q
  rw [e0, e2, e4]
  have inner : ∀ k : Fin 64, matmul (F := Ideal) dot_S2048x64_S64x64_S2048x64_1_0_0_1_n_n none (truncf .bf16 x0 bitsLt_bf16_f32 : FVec Ideal S2048x64 .bf16) (truncf .bf16 x1 bitsLt_bf16_f32 : FVec Ideal S64x64 .bf16) (constant (F := Ideal) S2048x64 .f32 0x00000000#32) (ix2 p k)
      = ∑ j : Fin 64, x0 (ix2 p j) * x1 (ix2 j k) := fun k =>
    LibMatmulRows.matmul_zero_ix2 dot_S2048x64_S64x64_S2048x64_1_0_0_1_n_n rfl rfl dot_S2048x64_S64x64_S2048x64_1_0_0_1_n_n_l0 dot_S2048x64_S64x64_S2048x64_1_0_0_1_n_n_l1 dot_S2048x64_S64x64_S2048x64_1_0_0_1_n_n_r0 dot_S2048x64_S64x64_S2048x64_1_0_0_1_n_n_r1 none _ _ p k
  refine congrArg₂ (· + ·) ((LibMatmulRows.matmul_zero_ix2 dot_S2048x64_S64x128_S2048x128_1_0_0_1_n_n rfl rfl dot_S2048x64_S64x128_S2048x128_1_0_0_1_n_n_l0 dot_S2048x64_S64x128_S2048x128_1_0_0_1_n_n_l1 dot_S2048x64_S64x128_S2048x128_1_0_0_1_n_n_r0 dot_S2048x64_S64x128_S2048x128_1_0_0_1_n_n_r1 none _ _ p q).trans
    (Finset.sum_congr rfl fun k _ => ?_)) b4
  show max (matmul (F := Ideal) dot_S2048x64_S64x64_S2048x64_1_0_0_1_n_n none (truncf .bf16 x0 bitsLt_bf16_f32 : FVec Ideal S2048x64 .bf16) (truncf .bf16 x1 bitsLt_bf16_f32 : FVec Ideal S64x64 .bf16) (constant (F := Ideal) S2048x64 .f32 0x00000000#32) (ix2 p k)
      + broadcastTo S2048x64 x2 broadcasts_S1x64_S2048x64 (ix2 p k)) (Ideal.ofBits .f32 0x00000000#32) * x3 (ix2 k q) = _
  rw [inner k, b2 k]

/-- The one grid point's block indices are all zero. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- What the point writes back is the head of the arrays as the region finds them, read through the whole-array block. -/
theorem flushed_eq (c : Dev nD) (t : Fin cfg3.N) :
    (dat3 V c).flushed 5 t = ((cfg3.win 5).blk t).view.read (Elt Ideal) (head (V c main_v74) (V c main_arg7) (V c main_v75) (V c main_arg9) (V c main_v76)) := by
  show (cfg3.win 5).cut (grid3.coords t) ((dat3 V c).after 5 t) = _
  rw [after3_5]
  unfold out3_5
  rw [View.canon_unit_zero hz]
  simp only [View.ld_unit_zero (S := S2048x64) hz, View.ld_unit_zero (S := S64x64) hz, View.ld_unit_zero (S := S1x64) hz, View.ld_unit_zero (S := S64x128) hz, View.ld_unit_zero (S := S1x128) hz]
  obtain ⟨a0, a1, a2, a3, a4, a5, a6, a7, a8, a9, a10, a11⟩ := idx_facts t
  refine funext fun (j : S2048x128.Idx) => ?_
  obtain ⟨p, q, rfl⟩ : ∃ (p : Fin 2048) (q : Fin 128), j = ix2 p q := ⟨j 0, j 1, eq_ix2 j⟩
  show k3_pay1 (iblk3 V c 0 t) (iblk3 V c 1 t) (iblk3 V c 2 t) (iblk3 V c 3 t) (iblk3 V c 4 t) (ix2 p q)
    = head (V c main_v74) (V c main_arg7) (V c main_v75) (V c main_arg9) (V c main_v76) (((cfg3.win 5).blk t).view.emb (ix2 p q))
  refine (pay_apply (iblk3 V c 0 t) (iblk3 V c 1 t) (iblk3 V c 2 t) (iblk3 V c 3 t) (iblk3 V c 4 t) p q).trans ?_
  have hemb : ((cfg3.win 5).blk t).view.emb (ix2 p q) = ix2 p q := by
    funext ax; apply Fin.ext
    match ax with
    | ⟨0, _⟩ => show win3_5.index t (0 : Fin 2) * 2048 + 1 * p.val = p.val; omega
    | ⟨1, _⟩ => show win3_5.index t (1 : Fin 2) * 128 + 1 * q.val = q.val; omega
  rw [hemb]
  unfold head
  have h0 : ∀ (r : Fin 2048) (s : Fin 64), iblk3 V c 0 t (ix2 r s) = V c main_v74 (ix2 r s) := fun r s => by
    show V c main_v74 (((cfg3.win 0).blk t).view.emb (ix2 r s)) = _
    refine congrArg (V c main_v74) (funext fun ax => Fin.ext ?_)
    match ax with
    | ⟨0, _⟩ => show win3_0.index t (0 : Fin 2) * 2048 + 1 * r.val = r.val; omega
    | ⟨1, _⟩ => show win3_0.index t (1 : Fin 2) * 64 + 1 * s.val = s.val; omega
  have h1 : ∀ (r : Fin 64) (s : Fin 64), iblk3 V c 1 t (ix2 r s) = V c main_arg7 (ix2 r s) := fun r s => by
    show V c main_arg7 (((cfg3.win 1).blk t).view.emb (ix2 r s)) = _
    refine congrArg (V c main_arg7) (funext fun ax => Fin.ext ?_)
    match ax with
    | ⟨0, _⟩ => show win3_1.index t (0 : Fin 2) * 64 + 1 * r.val = r.val; omega
    | ⟨1, _⟩ => show win3_1.index t (1 : Fin 2) * 64 + 1 * s.val = s.val; omega
  have h2 : ∀ (r : Fin 1) (s : Fin 64), iblk3 V c 2 t (ix2 r s) = V c main_v75 (ix2 r s) := fun r s => by
    show V c main_v75 (((cfg3.win 2).blk t).view.emb (ix2 r s)) = _
    refine congrArg (V c main_v75) (funext fun ax => Fin.ext ?_)
    match ax with
    | ⟨0, _⟩ => show win3_2.index t (0 : Fin 2) * 1 + 1 * r.val = r.val; omega
    | ⟨1, _⟩ => show win3_2.index t (1 : Fin 2) * 64 + 1 * s.val = s.val; omega
  have h3 : ∀ (r : Fin 64) (s : Fin 128), iblk3 V c 3 t (ix2 r s) = V c main_arg9 (ix2 r s) := fun r s => by
    show V c main_arg9 (((cfg3.win 3).blk t).view.emb (ix2 r s)) = _
    refine congrArg (V c main_arg9) (funext fun ax => Fin.ext ?_)
    match ax with
    | ⟨0, _⟩ => show win3_3.index t (0 : Fin 2) * 64 + 1 * r.val = r.val; omega
    | ⟨1, _⟩ => show win3_3.index t (1 : Fin 2) * 128 + 1 * s.val = s.val; omega
  have h4 : ∀ (r : Fin 1) (s : Fin 128), iblk3 V c 4 t (ix2 r s) = V c main_v76 (ix2 r s) := fun r s => by
    show V c main_v76 (((cfg3.win 4).blk t).view.emb (ix2 r s)) = _
    refine congrArg (V c main_v76) (funext fun ax => Fin.ext ?_)
    match ax with
    | ⟨0, _⟩ => show win3_4.index t (0 : Fin 2) * 1 + 1 * r.val = r.val; omega
    | ⟨1, _⟩ => show win3_4.index t (1 : Fin 2) * 128 + 1 * s.val = s.val; omega
  simp only [h0, h1, h2, h3, h4]

/-- An index of the output array lies in the point's block iff each coordinate is in the block's range. -/
theorem mem_blk (t : Fin cfg3.N) (i : S2048x128.Idx) :
    i ∈ ((cfg3.win 5).blk t).view.set ↔ ∀ a : Fin 2, win3_5.index t a * S2048x128.size a ≤ (i a).val ∧ (i a).val < win3_5.index t a * S2048x128.size a + S2048x128.size a := by
  show i ∈ ((View.whole main_v77).slice (win3_5.rect t)).set ↔ _
  rw [View.set_slice_whole, Rect.mem_set_unit]
  exact Iff.rfl

/-- The one block is the whole array. -/
theorem cover (i : S2048x128.Idx) : ∃ t : Fin cfg3.N, (cfg3.win 5).flush t = true ∧ i ∈ ((cfg3.win 5).blk t).view.set := by
  have hi0 : (i 0).val < 2048 := (i 0).isLt
  have hi1 : (i 1).val < 128 := (i 1).isLt
  obtain ⟨a0, a1, a2, a3, a4, a5, a6, a7, a8, a9, a10, a11⟩ := idx_facts t3_0
  refine ⟨t3_0, flush3_5 t3_0, ?_⟩
  rw [mem_blk]
  intro a
  match a with
  | ⟨0, _⟩ => show win3_5.index t3_0 (0 : Fin 2) * 2048 ≤ (i 0).val ∧ (i 0).val < win3_5.index t3_0 (0 : Fin 2) * 2048 + 2048; omega
  | ⟨1, _⟩ => show win3_5.index t3_0 (1 : Fin 2) * 128 ≤ (i 1).val ∧ (i 1).val < win3_5.index t3_0 (1 : Fin 2) * 128 + 128; omega

/-- The output array after the region, as one function of the five arrays as the region finds them. -/
theorem value (c : Dev nD) : (dat3 V c).arrAt 5 cfg3.N = head (V c main_v74) (V c main_arg7) (V c main_v75) (V c main_arg9) (V c main_v76) :=
  (dat3 V c).arrAt_eq_of_cover 5 (head (V c main_v74) (V c main_arg7) (V c main_v75) (V c main_arg9) (V c main_v76)) (fun t _ => flushed_eq V c t) cover

end Cert.KernelIdeal.Head

end
-- ==== Proof.Stages.lean ====
/-
  The four regions' functions are the reference's stages.

  Each region's output, as one function of whole arrays, is compared entry by entry with the reference's operations
  read at an index. A matrix product is on both sides the sum over the contracted axis of the products of the
  entries. The kernel's bias operand is the bias vector laid out as one row; the reference broadcasts the vector to a
  row and the row over all rows: both read the vector's entry at the column. The rectifier is the maximum with the
  zero word on both sides.
-/
import proofs.«130339_j90589450207900_1_alg».proof.Proof.NodeProject
import proofs.«130339_j90589450207900_1_alg».proof.Proof.HiddenProject
import proofs.«130339_j90589450207900_1_alg».proof.Proof.HiddenActivate
import proofs.«130339_j90589450207900_1_alg».proof.Proof.Head
import proofs.«130339_j90589450207900_1_alg».proof.Proof.ReferenceRead

set_option maxRecDepth 16384

noncomputable section

namespace Cert.Stages

open Idealize.ShloMosaic Idealize.ShloMosaic.ValueIdx

/-- The first region's product is the reference's first dot_general. -/
theorem prod_eq (x0 : (⟨Cert.ReferenceIdeal.S100000x5, .f32⟩ : BufTy).Contents (Elt Ideal)) (x3 : (⟨Cert.ReferenceIdeal.S5x64, .f32⟩ : BufTy).Contents (Elt Ideal)) :
    Cert.KernelIdeal.NodeProject.prod x0 x3 = Cert.ReferenceIdeal.ReadP.val_main_v32 (F := Ideal) x0 x3 := by
  funext i
  rw [Cert.ReferenceIdeal.ReadP.val_main_v32_apply]
  unfold Cert.KernelIdeal.NodeProject.prod
  refine Finset.sum_congr rfl fun k _ => ?_
  have el := (funext fun a => Fin.ext (by match a with | ⟨0, _⟩ => rfl | ⟨1, _⟩ => rfl) : (ix2 (i 0) k : Cert.ReferenceIdeal.S100000x5.Idx) = Cert.ReferenceIdeal.ReadP.lidx_main_v32 i k)
  have er := (funext fun a => Fin.ext (by match a with | ⟨0, _⟩ => rfl | ⟨1, _⟩ => rfl) : (ix2 k (i 1) : Cert.ReferenceIdeal.S5x64.Idx) = Cert.ReferenceIdeal.ReadP.ridx_main_v32 i k)
  rw [← el, ← er]

/-- The second region's function of the first aggregate, the bias row and the weights is the reference's second
    dot_general of the rectified, biased aggregate. -/
theorem hidden_eq (x0 : (⟨Cert.ReferenceIdeal.S100000x5, .f32⟩ : BufTy).Contents (Elt Ideal)) (x1 : (⟨Cert.ReferenceIdeal.S2x1000000, .i32⟩ : BufTy).Contents (Elt Ideal)) (x3 : (⟨Cert.ReferenceIdeal.S5x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) :
    Cert.KernelIdeal.HiddenProject.hidden (Cert.ReferenceIdeal.ReadP.val_main_v45 (F := Ideal) x0 x1 x3) (Cert.ReferenceIdeal.ReadP.val_main_v46 (F := Ideal) x4) x5 = Cert.ReferenceIdeal.ReadP.val_main_v50 (F := Ideal) x0 x1 x3 x4 x5 := by
  funext i
  rw [Cert.ReferenceIdeal.ReadP.val_main_v50_apply]
  unfold Cert.KernelIdeal.HiddenProject.hidden
  refine Finset.sum_congr rfl fun k _ => ?_
  have el := (funext fun a => Fin.ext (by match a with | ⟨0, _⟩ => rfl | ⟨1, _⟩ => rfl) : (ix2 (i 0) k : Cert.ReferenceIdeal.S100000x64.Idx) = Cert.ReferenceIdeal.ReadP.lidx_main_v50 i k)
  have er := (funext fun a => Fin.ext (by match a with | ⟨0, _⟩ => rfl | ⟨1, _⟩ => rfl) : (ix2 k (i 1) : Cert.ReferenceIdeal.S64x64.Idx) = Cert.ReferenceIdeal.ReadP.ridx_main_v50 i k)
  rw [← el, ← er, Cert.ReferenceIdeal.ReadP.val_main_v49_apply, Cert.ReferenceIdeal.ReadP.val_main_v48_apply, Cert.ReferenceIdeal.ReadP.val_main_v47_apply, Cert.ReferenceIdeal.ReadP.val_main_call1_v0_apply, Cert.ReferenceIdeal.ReadP.val_main_call1_cst_apply]
  have eb := (funext fun a => Fin.ext (by match a with | ⟨0, _⟩ => rfl | ⟨1, _⟩ => rfl) : (ix2 (0 : Fin 1) k : Cert.ReferenceIdeal.S1x64.Idx) = Cert.ReferenceIdeal.ReadP.idx_main_v47 (ix2 (i 0) k))
  rw [← eb]
  rfl

/-- The third region's function of the second aggregate and the bias row is the reference's rectified, biased
    second aggregate. -/
theorem activate_eq (x0 : (⟨Cert.ReferenceIdeal.S100000x5, .f32⟩ : BufTy).Contents (Elt Ideal)) (x1 : (⟨Cert.ReferenceIdeal.S2x1000000, .i32⟩ : BufTy).Contents (Elt Ideal)) (x3 : (⟨Cert.ReferenceIdeal.S5x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) :
    Cert.KernelIdeal.HiddenActivate.activate (Cert.ReferenceIdeal.ReadP.val_main_v63 (F := Ideal) x0 x1 x3 x4 x5) (Cert.ReferenceIdeal.ReadP.val_main_v64 (F := Ideal) x6) = Cert.ReferenceIdeal.ReadP.val_main_v67 (F := Ideal) x0 x1 x3 x4 x5 x6 := by
  funext i
  rw [Cert.ReferenceIdeal.ReadP.val_main_v67_apply, Cert.ReferenceIdeal.ReadP.val_main_v66_apply, Cert.ReferenceIdeal.ReadP.val_main_v65_apply, Cert.ReferenceIdeal.ReadP.val_main_call2_v0_apply, Cert.ReferenceIdeal.ReadP.val_main_call2_cst_apply]
  unfold Cert.KernelIdeal.HiddenActivate.activate
  have eb := (funext fun a => Fin.ext (by match a with | ⟨0, _⟩ => rfl | ⟨1, _⟩ => rfl) : (ix2 (0 : Fin 1) (i 1) : Cert.ReferenceIdeal.S1x64.Idx) = Cert.ReferenceIdeal.ReadP.idx_main_v65 i)
  rw [← eb]
  rfl

/-- The fourth region's function of the pooled features, the two weight matrices and the two bias rows is the
    reference's head. -/
theorem head_eq (x0 : (⟨Cert.ReferenceIdeal.S100000x5, .f32⟩ : BufTy).Contents (Elt Ideal)) (x1 : (⟨Cert.ReferenceIdeal.S2x1000000, .i32⟩ : BufTy).Contents (Elt Ideal)) (x2 : (⟨Cert.ReferenceIdeal.S100000, .i32⟩ : BufTy).Contents (Elt Ideal)) (x3 : (⟨Cert.ReferenceIdeal.S5x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x128, .f32⟩ : BufTy).Contents (Elt Ideal)) (x10 : (⟨Cert.ReferenceIdeal.S128, .f32⟩ : BufTy).Contents (Elt Ideal)) :
    Cert.KernelIdeal.Head.head (Cert.ReferenceIdeal.ReadP.val_main_v79 (F := Ideal) x0 x1 x2 x3 x4 x5 x6) x7 (Cert.ReferenceIdeal.ReadP.val_main_v81 (F := Ideal) x8) x9 (Cert.ReferenceIdeal.ReadP.val_main_v86 (F := Ideal) x10) = Cert.ReferenceIdeal.ReadP.val_main_v88 (F := Ideal) x0 x1 x2 x3 x4 x5 x6 x7 x8 x9 x10 := by
  funext i
  rw [Cert.ReferenceIdeal.ReadP.val_main_v88_apply, Cert.ReferenceIdeal.ReadP.val_main_v87_apply, Cert.ReferenceIdeal.ReadP.val_main_v85_apply]
  unfold Cert.KernelIdeal.Head.head
  have eb4 := (funext fun a => Fin.ext (by match a with | ⟨0, _⟩ => rfl | ⟨1, _⟩ => rfl) : (ix2 (0 : Fin 1) (i 1) : Cert.ReferenceIdeal.S1x128.Idx) = Cert.ReferenceIdeal.ReadP.idx_main_v87 i)
  rw [← eb4]
  refine congrArg₂ (· + ·) (Finset.sum_congr rfl fun k _ => ?_) rfl
  have el := (funext fun a => Fin.ext (by match a with | ⟨0, _⟩ => rfl | ⟨1, _⟩ => rfl) : (ix2 (i 0) k : Cert.ReferenceIdeal.S2048x64.Idx) = Cert.ReferenceIdeal.ReadP.lidx_main_v85 i k)
  have er := (funext fun a => Fin.ext (by match a with | ⟨0, _⟩ => rfl | ⟨1, _⟩ => rfl) : (ix2 k (i 1) : Cert.ReferenceIdeal.S64x128.Idx) = Cert.ReferenceIdeal.ReadP.ridx_main_v85 i k)
  rw [← el, ← er, Cert.ReferenceIdeal.ReadP.val_main_v84_apply, Cert.ReferenceIdeal.ReadP.val_main_v83_apply, Cert.ReferenceIdeal.ReadP.val_main_v82_apply, Cert.ReferenceIdeal.ReadP.val_main_v80_apply, Cert.ReferenceIdeal.ReadP.val_main_call3_v0_apply, Cert.ReferenceIdeal.ReadP.val_main_call3_cst_apply]
  have eb3 := (funext fun a => Fin.ext (by match a with | ⟨0, _⟩ => rfl | ⟨1, _⟩ => rfl) : (ix2 (0 : Fin 1) k : Cert.ReferenceIdeal.S1x64.Idx) = Cert.ReferenceIdeal.ReadP.idx_main_v82 (ix2 (i 0) k))
  rw [← eb3]
  have inner : (∑ j : Fin 64, (Cert.ReferenceIdeal.ReadP.val_main_v79 (F := Ideal) x0 x1 x2 x3 x4 x5 x6) (ix2 (i 0) j) * x7 (ix2 j k))
      = ∑ j : Fin 64, (Cert.ReferenceIdeal.ReadP.val_main_v79 (F := Ideal) x0 x1 x2 x3 x4 x5 x6) (Cert.ReferenceIdeal.ReadP.lidx_main_v80 (ix2 (i 0) k) j) * x7 (Cert.ReferenceIdeal.ReadP.ridx_main_v80 (ix2 (i 0) k) j) :=
    Finset.sum_congr rfl fun j _ => by
      have el' := (funext fun a => Fin.ext (by match a with | ⟨0, _⟩ => rfl | ⟨1, _⟩ => rfl) : (ix2 (i 0) j : Cert.ReferenceIdeal.S2048x64.Idx) = Cert.ReferenceIdeal.ReadP.lidx_main_v80 (ix2 (i 0) k) j)
      have er' := (funext fun a => Fin.ext (by match a with | ⟨0, _⟩ => rfl | ⟨1, _⟩ => rfl) : (ix2 j k : Cert.ReferenceIdeal.S64x64.Idx) = Cert.ReferenceIdeal.ReadP.ridx_main_v80 (ix2 (i 0) k) j)
      rw [← el', ← er']
  rw [inner]
  rfl

end Cert.Stages

end
-- ==== Proof.LibLayout.lean ====
/-
  Two spellings of one re-layout. Adding a unit axis to a vector — a reshape of [n] to [n, 1] or to [1, n] — and
  the broadcast_in_dim that sends the vector's one axis to the non-unit axis of the same result shape are the same
  function: element (r, 0) (respectively (0, r)) of either is element r of the vector.
-/
import Idealize.ShloMosaic.Lib.Pipeline.Value
import Idealize.ShloMosaic.Lib.ValueIdx
import Idealize.ShloMosaic.Lib.ValueLayout

noncomputable section

namespace Cert.LibLayout

open Idealize.ShloMosaic

variable {α : Type}

/-- [n] → [n, 1]: the reshape is the broadcast along axis 0; entry (r, 0) of either is entry r of the vector. -/
theorem shapeCast_col_eq_broadcastInDim (n : Nat) (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have hj1 : (j 1).val = 0 := by have := (j 1).isLt; simp at this; omega
  let k : (⟨1, ![n]⟩ : Shape).Idx := fun a => ⟨(j 0).val, by
    have ha : a = 0 := Subsingleton.elim _ _
    subst ha
    show (j 0).val < n
    exact (j 0).isLt⟩
  rw [shapeCast_apply v h j k ?_, broadcastInDim_apply ![0] hb v j k ?_]
  · intro a
    have ha : a = 0 := Subsingleton.elim _ _
    subst ha
    by_cases h1 : (⟨1, ![n]⟩ : Shape).size 0 = 1
    · rw [if_pos h1]
      have : (j 0).val < n := (j 0).isLt
      have h1' : n = 1 := h1
      show (j 0).val = 0
      omega
    · rw [if_neg h1]; rfl
  · rw [Shape.rowMajor_val_one, Shape.rowMajor_val_two]
    show (j 0).val = (j 0).val * 1 + (j 1).val
    omega

/-- [n] → [1, n]: the reshape is the broadcast along axis 1; entry (0, r) of either is entry r of the vector. -/
theorem shapeCast_row_eq_broadcastInDim (n : Nat) (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have hj0 : (j 0).val = 0 := by have := (j 0).isLt; simp at this; omega
  let k : (⟨1, ![n]⟩ : Shape).Idx := fun a => ⟨(j 1).val, by
    have ha : a = 0 := Subsingleton.elim _ _
    subst ha
    show (j 1).val < n
    exact (j 1).isLt⟩
  rw [shapeCast_apply v h j k ?_, broadcastInDim_apply ![1] hb v j k ?_]
  · intro a
    have ha : a = 0 := Subsingleton.elim _ _
    subst ha
    by_cases h1 : (⟨1, ![n]⟩ : Shape).size 0 = 1
    · rw [if_pos h1]
      have : (j 1).val < n := (j 1).isLt
      have h1' : n = 1 := h1
      show (j 1).val = 0
      omega
    · rw [if_neg h1]; rfl
  · rw [Shape.rowMajor_val_one, Shape.rowMajor_val_two]
    show (j 1).val = (j 0).val * n + (j 1).val
    rw [hj0]; omega

end Cert.LibLayout

end
-- ==== Proof.Chain.lean ====
/-
  The idealized kernel program's result is the reference's last stage of the launch contents.

  The run's buffer contents are followed boundary by boundary. A stretch of host operations is the same list of
  operations as the reference's at the same place, so a buffer it computes is the reference's stage there, once the
  buffers it reads are; a region's output array is that region's function of its input arrays, which is the
  reference's stage by the entry-by-entry comparison. The bias vectors enter the regions reshaped to one row; that is
  the reference's broadcast of the vector to a row.
-/
import proofs.«130339_j90589450207900_1_alg».proof.Proof.Carried
import proofs.«130339_j90589450207900_1_alg».proof.Proof.Stages
import proofs.«130339_j90589450207900_1_alg».proof.Proof.LibLayout

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

open Cert.KernelIdeal.Carried

/-! ## Before the first region: the index vectors and the normalisation coefficients -/

/-- The source vector (first row of the edge list, then the self-loops). -/
theorem v3_at1 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  dsimp only [hostOps0]
  after_results_simp
  rfl

/-- The destination vector (second row of the edge list, then the self-loops). -/
theorem v6_at1 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  dsimp only [hostOps0]
  after_results_simp
  rfl

/-- Which nodes have a positive degree (the degree is the number of messages that arrive, self-loop included). -/
theorem v12_at1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  dsimp only [hostOps0]
  after_results_simp
  rfl

/-- The inverse square root of the degree raised to at least one. -/
theorem v15_at1 : W1 m ρ c (Proc.devRef .tc main_v15) = Cert.ReferenceIdeal.ReadP.val_main_v15 (F := Ideal) (m ((c : Thread nD τ).loc main_arg1)) := by
  show StableHlo.after hostOps0 (W0 m ρ c) (Proc.devRef .tc main_v15) = _
  dsimp only [hostOps0]
  after_results_simp
  rfl

/-- The zero that a node without messages gets. -/
theorem cst3_at1 : W1 m ρ c (Proc.devRef .tc main_cst_3) = Cert.ReferenceIdeal.ReadP.val_main_cst_3 (F := Ideal) := by
  show StableHlo.after hostOps0 (W0 m ρ c) (Proc.devRef .tc main_cst_3) = _
  dsimp only [hostOps0]
  after_results_simp
  rfl

/-- The per-node coefficient — the second operand where the first holds, the third (a scalar, broadcast) elsewhere —
    from any contents, in terms of what the three operands' buffers hold. -/
theorem v16_step (W : Valuation τ sig (Elt Ideal)) (A : (⟨S100000, .i1⟩ : BufTy).Contents (Elt Ideal))
    (B : (⟨S100000, .f32⟩ : BufTy).Contents (Elt Ideal)) (C : (⟨S_, .f32⟩ : BufTy).Contents (Elt Ideal))
    (h12 : W (Proc.devRef .tc main_v12) = A) (h15 : W (Proc.devRef .tc main_v15) = B) (h3 : W (Proc.devRef .tc main_cst_3) = C) :
    StableHlo.after hostOps0_1 W (Proc.devRef .tc main_v16) = select A B (broadcastInDim S100000 ![] bcast_S_S100000 (id C)) := by
  dsimp only [hostOps0_1]
  after_results_simp
  rw [h12, h15, h3]
  rfl

/-- With the reference's stages in the three operands' buffers it is the reference's stage. -/
theorem v16_at2 : W2 m ρ c (Proc.devRef .tc main_v16) = Cert.ReferenceIdeal.ReadP.val_main_v16 (F := Ideal) (m ((c : Thread nD τ).loc main_arg1)) :=
  (v16_step (W1 m ρ c) _ _ _ (v12_at1 m ρ c) (v15_at1 m ρ c) (cst3_at1 m ρ c)).trans rfl

theorem v3_at2 : W2 m ρ c (Proc.devRef .tc main_v3) = Cert.ReferenceIdeal.ReadP.val_main_v3 (F := Ideal) (m ((c : Thread nD τ).loc main_arg1)) := (v3_keep2 m ρ c).trans (v3_at1 m ρ c)
theorem v6_at2 : W2 m ρ c (Proc.devRef .tc main_v6) = Cert.ReferenceIdeal.ReadP.val_main_v6 (F := Ideal) (m ((c : Thread nD τ).loc main_arg1)) := (v6_keep2 m ρ c).trans (v6_at1 m ρ c)

/-- The normalisation coefficient of every message — the product of the coefficients of its source and of its
    destination — from any contents in which the coefficients and the two index vectors are the reference's. -/
theorem v31_step (W : Valuation τ sig (Elt Ideal)) (x1 : (⟨Cert.ReferenceIdeal.S2x1000000, .i32⟩ : BufTy).Contents (Elt Ideal))
    (h16 : W (Proc.devRef .tc main_v16) = Cert.ReferenceIdeal.ReadP.val_main_v16 (F := Ideal) x1) (h3 : W (Proc.devRef .tc main_v3) = Cert.ReferenceIdeal.ReadP.val_main_v3 (F := Ideal) x1)
    (h6 : W (Proc.devRef .tc main_v6) = Cert.ReferenceIdeal.ReadP.val_main_v6 (F := Ideal) x1) :
    StableHlo.after hostOps0_2 W (Proc.devRef .tc main_v31) = Cert.ReferenceIdeal.ReadP.val_main_v31 (F := Ideal) x1 := by
  dsimp only [hostOps0_2]
  after_results_simp
  rw [h16, h3, h6]
  rfl

theorem v31_at3 : W3 m ρ c (Proc.devRef .tc main_v31) = Cert.ReferenceIdeal.ReadP.val_main_v31 (F := Ideal) (m ((c : Thread nD τ).loc main_arg1)) :=
  v31_step (W2 m ρ c) _ (v16_at2 m ρ c) (v3_at2 m ρ c) (v6_at2 m ρ c)

theorem v3_at4 : W4 m ρ c (Proc.devRef .tc main_v3) = Cert.ReferenceIdeal.ReadP.val_main_v3 (F := Ideal) (m ((c : Thread nD τ).loc main_arg1)) :=
  ((v3_keep4 m ρ c).trans ((v3_keep3 m ρ c).trans (v3_keep2 m ρ c))).trans (v3_at1 m ρ c)
theorem v6_at4 : W4 m ρ c (Proc.devRef .tc main_v6) = Cert.ReferenceIdeal.ReadP.val_main_v6 (F := Ideal) (m ((c : Thread nD τ).loc main_arg1)) :=
  ((v6_keep4 m ρ c).trans ((v6_keep3 m ρ c).trans (v6_keep2 m ρ c))).trans (v6_at1 m ρ c)
theorem v31_at4 : W4 m ρ c (Proc.devRef .tc main_v31) = Cert.ReferenceIdeal.ReadP.val_main_v31 (F := Ideal) (m ((c : Thread nD τ).loc main_arg1)) :=
  (v31_keep4 m ρ c).trans (v31_at3 m ρ c)
theorem v3_at6 : W6 m ρ c (Proc.devRef .tc main_v3) = Cert.ReferenceIdeal.ReadP.val_main_v3 (F := Ideal) (m ((c : Thread nD τ).loc main_arg1)) :=
  ((v3_keep6 m ρ c).trans (v3_keep5 m ρ c)).trans (v3_at4 m ρ c)
theorem v6_at6 : W6 m ρ c (Proc.devRef .tc main_v6) = Cert.ReferenceIdeal.ReadP.val_main_v6 (F := Ideal) (m ((c : Thread nD τ).loc main_arg1)) :=
  ((v6_keep6 m ρ c).trans (v6_keep5 m ρ c)).trans (v6_at4 m ρ c)
theorem v31_at6 : W6 m ρ c (Proc.devRef .tc main_v31) = Cert.ReferenceIdeal.ReadP.val_main_v31 (F := Ideal) (m ((c : Thread nD τ).loc main_arg1)) :=
  ((v31_keep6 m ρ c).trans (v31_keep5 m ρ c)).trans (v31_at4 m ρ c)

/-! ## The first layer -/

/-- The first region's output: the features times the first weights. -/
theorem v32_at4 : W4 m ρ c (Proc.devRef .tc main_v32) = Cert.ReferenceIdeal.ReadP.val_main_v32 (F := Ideal) (m ((c : Thread nD τ).loc main_arg0)) (m ((c : Thread nD τ).loc main_arg3)) := by
  refine (W4_arr m ρ c 2).trans ((Cert.KernelIdeal.NodeProject.value (V3 m ρ) c).trans ?_)
  have h0 : V3 m ρ c main_arg0 = (m ((c : Thread nD τ).loc main_arg0)) := arg0_at3 m ρ c
  have h3 : V3 m ρ c main_arg3 = (m ((c : Thread nD τ).loc main_arg3)) := arg3_at3 m ρ c
  rw [h0, h3]
  exact Cert.Stages.prod_eq _ _

/-- The first aggregate: the projected rows gathered at the sources, scaled, and added up at the destinations. -/
theorem v45_at5 : W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg3)) := by
  show StableHlo.after hostOps1 (W4 m ρ c) (Proc.devRef .tc main_v45) = _
  dsimp only [hostOps1]
  after_results_simp
  rw [v32_at4 m ρ c, v3_at4 m ρ c, v6_at4 m ρ c, v31_at4 m ρ c]
  rfl

/-- The first bias as one row. -/
theorem v46_at5 : W5 m ρ c (Proc.devRef .tc main_v46) = Cert.ReferenceIdeal.ReadP.val_main_v46 (F := Ideal) (m ((c : Thread nD τ).loc main_arg4)) := by
  show StableHlo.after hostOps1 (W4 m ρ c) (Proc.devRef .tc main_v46) = _
  dsimp only [hostOps1]
  after_results_simp
  rw [arg4_at4 m ρ c]
  exact Cert.LibLayout.shapeCast_row_eq_broadcastInDim 64 _ _ _

/-! ## The second layer -/

/-- The second region's output: the rectified, biased first aggregate times the second weights. -/
theorem v47_at6 : W6 m ρ c (Proc.devRef .tc main_v47) = Cert.ReferenceIdeal.ReadP.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ((Cert.KernelIdeal.HiddenProject.value (V5 m ρ) c).trans ?_)
  have h1 : V5 m ρ c main_v45 = Cert.ReferenceIdeal.ReadP.val_main_v45 (F := Ideal) (m ((c : Thread nD τ).loc main_arg0)) (m ((c : Thread nD τ).loc main_arg1)) (m ((c : Thread nD τ).loc main_arg3)) := v45_at5 m ρ c
  have h2 : V5 m ρ c main_v46 = Cert.ReferenceIdeal.ReadP.val_main_v46 (F := Ideal) (m ((c : Thread nD τ).loc main_arg4)) := v46_at5 m ρ c
  have h3 : V5 m ρ c main_arg5 = (m ((c : Thread nD τ).loc main_arg5)) := arg5_at5 m ρ c
  rw [h1, h2, h3]
  exact Cert.Stages.hidden_eq _ _ _ _ _

/-- The second aggregate. -/
theorem v60_at7 : W7 m ρ c (Proc.devRef .tc main_v60) = Cert.ReferenceIdeal.ReadP.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W6 m ρ c) (Proc.devRef .tc main_v60) = _
  dsimp only [hostOps2]
  after_results_simp
  rw [v47_at6 m ρ c, v3_at6 m ρ c, v6_at6 m ρ c, v31_at6 m ρ c]
  rfl

/-- The second bias as one row. -/
theorem v61_at7 : W7 m ρ c (Proc.devRef .tc main_v61) = Cert.ReferenceIdeal.ReadP.val_main_v64 (F := Ideal) (m ((c : Thread nD τ).loc main_arg6)) := by
  show StableHlo.after hostOps2 (W6 m ρ c) (Proc.devRef .tc main_v61) = _
  dsimp only [hostOps2]
  after_results_simp
  rw [arg6_at6 m ρ c]
  exact Cert.LibLayout.shapeCast_row_eq_broadcastInDim 64 _ _ _

/-- The third region's output: the rectified, biased second aggregate. -/
theorem v62_at8 : W8 m ρ c (Proc.devRef .tc main_v62) = Cert.ReferenceIdeal.ReadP.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 2).trans ((Cert.KernelIdeal.HiddenActivate.value (V7 m ρ) c).trans ?_)
  have h1 : V7 m ρ c main_v60 = Cert.ReferenceIdeal.ReadP.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := v60_at7 m ρ c
  have h2 : V7 m ρ c main_v61 = Cert.ReferenceIdeal.ReadP.val_main_v64 (F := Ideal) (m ((c : Thread nD τ).loc main_arg6)) := v61_at7 m ρ c
  rw [h1, h2]
  exact Cert.Stages.activate_eq _ _ _ _ _ _

/-! ## Pooling and the head -/

/-- The mean of the node features over each graph. -/
theorem v74_at9 : W9 m ρ c (Proc.devRef .tc main_v74) = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W8 m ρ c) (Proc.devRef .tc main_v74) = _
  dsimp only [hostOps3]
  after_results_simp
  rw [v62_at8 m ρ c, arg2_at8 m ρ c]
  rfl

/-- The third bias as one row. -/
theorem v75_at9 : W9 m ρ c (Proc.devRef .tc main_v75) = Cert.ReferenceIdeal.ReadP.val_main_v81 (F := Ideal) (m ((c : Thread nD τ).loc main_arg8)) := by
  show StableHlo.after hostOps3 (W8 m ρ c) (Proc.devRef .tc main_v75) = _
  dsimp only [hostOps3]
  after_results_simp
  rw [arg8_at8 m ρ c]
  exact Cert.LibLayout.shapeCast_row_eq_broadcastInDim 64 _ _ _

/-- The fourth bias as one row. -/
theorem v76_at9 : W9 m ρ c (Proc.devRef .tc main_v76) = Cert.ReferenceIdeal.ReadP.val_main_v86 (F := Ideal) (m ((c : Thread nD τ).loc main_arg10)) := by
  show StableHlo.after hostOps3 (W8 m ρ c) (Proc.devRef .tc main_v76) = _
  dsimp only [hostOps3]
  after_results_simp
  rw [arg10_at8 m ρ c]
  exact Cert.LibLayout.shapeCast_row_eq_broadcastInDim 128 _ _ _

/-- The result: the head of the pooled features, which is the reference's last stage. -/
theorem result_eq : W10 m ρ c (Proc.devRef .tc main_v77) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 5).trans ((Cert.KernelIdeal.Head.value (V9 m ρ) c).trans ?_)
  have h0 : V9 m ρ c main_v74 = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := v74_at9 m ρ c
  have h1 : V9 m ρ c main_arg7 = (m ((c : Thread nD τ).loc main_arg7)) := arg7_at9 m ρ c
  have h2 : V9 m ρ c main_v75 = Cert.ReferenceIdeal.ReadP.val_main_v81 (F := Ideal) (m ((c : Thread nD τ).loc main_arg8)) := v75_at9 m ρ c
  have h3 : V9 m ρ c main_arg9 = (m ((c : Thread nD τ).loc main_arg9)) := arg9_at9 m ρ c
  have h4 : V9 m ρ c main_v76 = Cert.ReferenceIdeal.ReadP.val_main_v86 (F := Ideal) (m ((c : Thread nD τ).loc main_arg10)) := v76_at9 m ρ c
  rw [h0, h1, h2, h3, h4]
  exact Cert.Stages.head_eq _ _ _ _ _ _ _ _ _ _ _

end Cert.KernelIdeal.Chain

end
-- ==== Proof.lean ====
/-
  A two-layer graph convolution with mean pooling and a two-layer head, against its reference.

  Both programs compute, from node features x, an edge list, a graph index per node and four weight matrices with
  their biases: the symmetric normalisation of the messages (self-loops added) from the destinations' degrees; twice,
  a projection of the node rows by a weight matrix, gathered at the message sources, scaled, added up at the message
  destinations, biased and rectified; the mean of the node rows over each graph; and a head
  max(pooled · W3 + b3, 0) · W4 + b4. The kernel program computes the four dense steps — x · W1, max(agg1 + b1, 0) · W2,
  max(agg2 + b2, 0) and the head — in four tiled kernel regions, and everything else by the same host operations as
  the reference, in the same order. On the extended reals a change of float format is the identity and a matrix
  product into a zero accumulator is the sum of products, tile by tile the same as for the whole arrays, so each
  region's output array is the reference's array at the same place and the two results are one function of the
  arguments. No algebraic law beyond that is used, and the inputs' finiteness is not needed.

  The three frames: the two kernel programs' are the generated frames; the reference's is its run with the result
  dropped. The idealization rewrote nothing, so what it has to preserve is trivial.
-/
import proofs.«130339_j90589450207900_1_alg».proof.Defs
import proofs.«130339_j90589450207900_1_alg».proof.Proof.Gen.Kernel
import proofs.«130339_j90589450207900_1_alg».proof.Proof.Gen.Kernel.Skeleton
import proofs.«130339_j90589450207900_1_alg».proof.Proof.Gen.Kernel.Launch
import proofs.«130339_j90589450207900_1_alg».proof.Proof.Gen.Kernel.Points
import proofs.«130339_j90589450207900_1_alg».proof.Proof.Gen.Kernel.Frame
import proofs.«130339_j90589450207900_1_alg».proof.Proof.Gen.KernelIdeal
import proofs.«130339_j90589450207900_1_alg».proof.Proof.Gen.KernelIdeal.Skeleton
import proofs.«130339_j90589450207900_1_alg».proof.Proof.Gen.KernelIdeal.Launch
import proofs.«130339_j90589450207900_1_alg».proof.Proof.Gen.KernelIdeal.Points
import proofs.«130339_j90589450207900_1_alg».proof.Proof.Gen.KernelIdeal.Frame
import proofs.«130339_j90589450207900_1_alg».proof.Proof.Gen.ReferenceIdeal
import proofs.«130339_j90589450207900_1_alg».proof.Proof.Gen.Pre_finite_inputs
import proofs.«130339_j90589450207900_1_alg».proof.Proof.KernelRun
import proofs.«130339_j90589450207900_1_alg».proof.Proof.Chain
import proofs.«130339_j90589450207900_1_alg».proof.Proof.ReferenceRun
import proofs.«130339_j90589450207900_1_alg».proof.Proof.ReferenceRead
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the reference's last stage of the (agreeing) arguments in the result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Chain.result_eq m ρ c), (h c).2⟩)
      (Cert.KernelIdeal.KernelRun.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v88_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
